-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v87)) (v1 : (c : Dev Cert.KernelIdeal.nD) → Buf (Elt Ideal) ((c.tc : Thread Cert.KernelIdeal.nD Cert.KernelIdeal.τ).loc Cert.KernelIdeal.main_v175)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_v175) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v193) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S100000x128 .f32) (main_arg3 : IVec S2x1600000 32) (main_arg4 : FVec F S128x128 .f32) (main_arg5 : FVec F S128 .f32) (main_arg6 : FVec F S128x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg2
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S5000x128 : Shape := ⟨2, ![5000, 128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S5000x1 : Shape := ⟨2, ![5000, 1]⟩

abbrev nBuf : Space → Nat
  | .hbm => 224
  | .vmem => 56
  | .smem => 0
  | _ => 0

abbrev hbmTy0_0 (i : Nat) : BufTy := match i % 128 with
  | 0 => ⟨S100000x128, .f32⟩
  | 1 => ⟨S2x1600000, .i32⟩
  | 2 => ⟨S100000x128, .f32⟩
  | 3 => ⟨S2x1600000, .i32⟩
  | 4 => ⟨S128x128, .f32⟩
  | 5 => ⟨S128, .f32⟩
  | 6 => ⟨S128x128, .f32⟩
  | 7 => ⟨S128, .f32⟩
  | 8 => ⟨S1x1600000, .i32⟩
  | 9 => ⟨S1600000, .i32⟩
  | 10 => ⟨S1x1600000, .i32⟩
  | 11 => ⟨S1600000, .i32⟩
  | 12 => ⟨S100000x128, .f32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .f32⟩
  | 22 => ⟨S100000, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S1600000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x128, .f32⟩
  | 51 => ⟨S1600000x1, .f32⟩
  | 52 => ⟨S1600000x128, .f32⟩
  | 53 => ⟨S1600000x128, .f32⟩
  | 54 => ⟨S_, .f32⟩
  | 55 => ⟨S100000x128, .f32⟩
  | 56 => ⟨S1600000x1, .i32⟩
  | 57 => ⟨S100000x128, .f32⟩
  | 58 => ⟨S100000, .f32⟩
  | 59 => ⟨S100000x1, .f32⟩
  | 60 => ⟨S1x128, .f32⟩
  | 61 => ⟨S100000x128, .f32⟩
  | 62 => ⟨S1x1600000, .i32⟩
  | 63 => ⟨S1600000, .i32⟩
  | 64 => ⟨S1x1600000, .i32⟩
  | 65 => ⟨S1600000, .i32⟩
  | 66 => ⟨S100000x128, .f32⟩
  | 67 => ⟨S_, .f32⟩
  | 68 => ⟨S1600000, .f32⟩
  | 69 => ⟨S_, .f32⟩
  | 70 => ⟨S100000, .f32⟩
  | 71 => ⟨S1600000x1, .i32⟩
  | 72 => ⟨S100000, .f32⟩
  | 73 => ⟨S_, .f32⟩
  | 74 => ⟨S100000, .f32⟩
  | 75 => ⟨S100000, .f32⟩
  | 76 => ⟨S100000, .f32⟩
  | 77 => ⟨S_, .i32⟩
  | 78 => ⟨S1600000, .i32⟩
  | 79 => ⟨S1600000, .i1⟩
  | 80 => ⟨S_, .i32⟩
  | 81 => ⟨S1600000, .i32⟩
  | 82 => ⟨S1600000, .i32⟩
  | 83 => ⟨S1600000, .i32⟩
  | 84 => ⟨S1600000x1, .i32⟩
  | 85 => ⟨S1600000, .f32⟩
  | 86 => ⟨S_, .i32⟩
  | 87 => ⟨S1600000, .i32⟩
  | 88 => ⟨S1600000, .i1⟩
  | 89 => ⟨S_, .i32⟩
  | 90 => ⟨S1600000, .i32⟩
  | 91 => ⟨S1600000, .i32⟩
  | 92 => ⟨S1600000, .i32⟩
  | 93 => ⟨S1600000x1, .i32⟩
  | 94 => ⟨S1600000, .f32⟩
  | 95 => ⟨S1600000, .f32⟩
  | 96 => ⟨S_, .i32⟩
  | 97 => ⟨S1600000, .i32⟩
  | 98 => ⟨S1600000, .i1⟩
  | 99 => ⟨S_, .i32⟩
  | 100 => ⟨S1600000, .i32⟩
  | 101 => ⟨S1600000, .i32⟩
  | 102 => ⟨S1600000, .i32⟩
  | 103 => ⟨S1600000x1, .i32⟩
  | 104 => ⟨S1600000x128, .f32⟩
  | 105 => ⟨S1600000x1, .f32⟩
  | 106 => ⟨S1600000x128, .f32⟩
  | 107 => ⟨S1600000x128, .f32⟩
  | 108 => ⟨S_, .f32⟩
  | 109 => ⟨S100000x128, .f32⟩
  | 110 => ⟨S1600000x1, .i32⟩
  | 111 => ⟨S100000x128, .f32⟩
  | 112 => ⟨S100000, .f32⟩
  | 113 => ⟨S100000x1, .f32⟩
  | 114 => ⟨S1x128, .f32⟩
  | 115 => ⟨S100000x128, .f32⟩
  | 116 => ⟨S1x1600000, .i32⟩
  | 117 => ⟨S1600000, .i32⟩
  | 118 => ⟨S1x1600000, .i32⟩
  | 119 => ⟨S1600000, .i32⟩
  | 120 => ⟨S100000x128, .f32⟩
  | 121 => ⟨S_, .f32⟩
  | 122 => ⟨S1600000, .f32⟩
  | 123 => ⟨S_, .f32⟩
  | 124 => ⟨S100000, .f32⟩
  | 125 => ⟨S1600000x1, .i32⟩
  | 126 => ⟨S100000, .f32⟩
  | 127 => ⟨S_, .f32⟩
  | _ => ⟨S100000x128, .f32⟩

abbrev hbmTy0_1 (i : Nat) : BufTy := match i % 128 with
  | 0 => ⟨S100000, .f32⟩
  | 1 => ⟨S100000, .f32⟩
  | 2 => ⟨S100000, .f32⟩
  | 3 => ⟨S_, .i32⟩
  | 4 => ⟨S1600000, .i32⟩
  | 5 => ⟨S1600000, .i1⟩
  | 6 => ⟨S_, .i32⟩
  | 7 => ⟨S1600000, .i32⟩
  | 8 => ⟨S1600000, .i32⟩
  | 9 => ⟨S1600000, .i32⟩
  | 10 => ⟨S1600000x1, .i32⟩
  | 11 => ⟨S1600000, .f32⟩
  | 12 => ⟨S_, .i32⟩
  | 13 => ⟨S1600000, .i32⟩
  | 14 => ⟨S1600000, .i1⟩
  | 15 => ⟨S_, .i32⟩
  | 16 => ⟨S1600000, .i32⟩
  | 17 => ⟨S1600000, .i32⟩
  | 18 => ⟨S1600000, .i32⟩
  | 19 => ⟨S1600000x1, .i32⟩
  | 20 => ⟨S1600000, .f32⟩
  | 21 => ⟨S1600000, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x128, .f32⟩
  | 31 => ⟨S1600000x1, .f32⟩
  | 32 => ⟨S1600000x128, .f32⟩
  | 33 => ⟨S1600000x128, .f32⟩
  | 34 => ⟨S_, .f32⟩
  | 35 => ⟨S100000x128, .f32⟩
  | 36 => ⟨S1600000x1, .i32⟩
  | 37 => ⟨S100000x128, .f32⟩
  | 38 => ⟨S100000, .f32⟩
  | 39 => ⟨S100000x1, .f32⟩
  | 40 => ⟨S1x128, .f32⟩
  | 41 => ⟨S100000x128, .f32⟩
  | 42 => ⟨S1x1600000, .i32⟩
  | 43 => ⟨S1600000, .i32⟩
  | 44 => ⟨S1x1600000, .i32⟩
  | 45 => ⟨S1600000, .i32⟩
  | 46 => ⟨S100000x128, .f32⟩
  | 47 => ⟨S_, .f32⟩
  | 48 => ⟨S1600000, .f32⟩
  | 49 => ⟨S_, .f32⟩
  | 50 => ⟨S100000, .f32⟩
  | 51 => ⟨S1600000x1, .i32⟩
  | 52 => ⟨S100000, .f32⟩
  | 53 => ⟨S_, .f32⟩
  | 54 => ⟨S100000, .f32⟩
  | 55 => ⟨S100000, .f32⟩
  | 56 => ⟨S100000, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000, .f32⟩
  | 66 => ⟨S_, .i32⟩
  | 67 => ⟨S1600000, .i32⟩
  | 68 => ⟨S1600000, .i1⟩
  | 69 => ⟨S_, .i32⟩
  | 70 => ⟨S1600000, .i32⟩
  | 71 => ⟨S1600000, .i32⟩
  | 72 => ⟨S1600000, .i32⟩
  | 73 => ⟨S1600000x1, .i32⟩
  | 74 => ⟨S1600000, .f32⟩
  | 75 => ⟨S1600000, .f32⟩
  | 76 => ⟨S_, .i32⟩
  | 77 => ⟨S1600000, .i32⟩
  | 78 => ⟨S1600000, .i1⟩
  | 79 => ⟨S_, .i32⟩
  | 80 => ⟨S1600000, .i32⟩
  | 81 => ⟨S1600000, .i32⟩
  | 82 => ⟨S1600000, .i32⟩
  | 83 => ⟨S1600000x1, .i32⟩
  | 84 => ⟨S1600000x128, .f32⟩
  | 85 => ⟨S1600000x1, .f32⟩
  | 86 => ⟨S1600000x128, .f32⟩
  | 87 => ⟨S1600000x128, .f32⟩
  | 88 => ⟨S_, .f32⟩
  | 89 => ⟨S100000x128, .f32⟩
  | 90 => ⟨S1600000x1, .i32⟩
  | 91 => ⟨S100000x128, .f32⟩
  | 92 => ⟨S100000, .f32⟩
  | 93 => ⟨S100000x1, .f32⟩
  | 94 => ⟨S1x128, .f32⟩
  | 95 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x1, .f32⟩
  | .local _ .vmem, ⟨38, _⟩ => ⟨S5000x1, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S128x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x1, .f32⟩
  | .local _ .vmem, ⟨52, _⟩ => ⟨S5000x1, .f32⟩
  | .local _ .vmem, ⟨53, _⟩ => ⟨S1x128, .f32⟩
  | .local _ .vmem, ⟨54, _⟩ => ⟨S5000x128, .f32⟩
  | .local _ .vmem, ⟨55, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_8 : Ref sig .tc := ⟨.hbm, 67, rfl⟩
abbrev main_v49 : Ref sig .tc := ⟨.hbm, 68, rfl⟩
abbrev main_cst_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_c_11 : Ref sig .tc := ⟨.hbm, 77, rfl⟩
abbrev main_v56 : Ref sig .tc := ⟨.hbm, 78, rfl⟩
abbrev main_v57 : Ref sig .tc := ⟨.hbm, 79, rfl⟩
abbrev main_c_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_c_13 : Ref sig .tc := ⟨.hbm, 86, rfl⟩
abbrev main_v63 : Ref sig .tc := ⟨.hbm, 87, rfl⟩
abbrev main_v64 : Ref sig .tc := ⟨.hbm, 88, rfl⟩
abbrev main_c_14 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_c_15 : Ref sig .tc := ⟨.hbm, 96, rfl⟩
abbrev main_v71 : Ref sig .tc := ⟨.hbm, 97, rfl⟩
abbrev main_v72 : Ref sig .tc := ⟨.hbm, 98, rfl⟩
abbrev main_c_16 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_17 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_cst_18 : Ref sig .tc := ⟨.hbm, 121, rfl⟩
abbrev main_v93 : Ref sig .tc := ⟨.hbm, 122, rfl⟩
abbrev main_cst_19 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_20 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_c_21 : Ref sig .tc := ⟨.hbm, 131, rfl⟩
abbrev main_v100 : Ref sig .tc := ⟨.hbm, 132, rfl⟩
abbrev main_v101 : Ref sig .tc := ⟨.hbm, 133, rfl⟩
abbrev main_c_22 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_c_23 : Ref sig .tc := ⟨.hbm, 140, rfl⟩
abbrev main_v107 : Ref sig .tc := ⟨.hbm, 141, rfl⟩
abbrev main_v108 : Ref sig .tc := ⟨.hbm, 142, rfl⟩
abbrev main_c_24 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_c_25 : Ref sig .tc := ⟨.hbm, 150, rfl⟩
abbrev main_v115 : Ref sig .tc := ⟨.hbm, 151, rfl⟩
abbrev main_v116 : Ref sig .tc := ⟨.hbm, 152, rfl⟩
abbrev main_c_26 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_cst_27 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_cst_28 : Ref sig .tc := ⟨.hbm, 175, rfl⟩
abbrev main_v137 : Ref sig .tc := ⟨.hbm, 176, rfl⟩
abbrev main_cst_29 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_cst_30 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_c_31 : Ref sig .tc := ⟨.hbm, 185, rfl⟩
abbrev main_v144 : Ref sig .tc := ⟨.hbm, 186, rfl⟩
abbrev main_v145 : Ref sig .tc := ⟨.hbm, 187, rfl⟩
abbrev main_c_32 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_c_33 : Ref sig .tc := ⟨.hbm, 194, rfl⟩
abbrev main_v151 : Ref sig .tc := ⟨.hbm, 195, rfl⟩
abbrev main_v152 : Ref sig .tc := ⟨.hbm, 196, rfl⟩
abbrev main_c_34 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_c_35 : Ref sig .tc := ⟨.hbm, 204, rfl⟩
abbrev main_v159 : Ref sig .tc := ⟨.hbm, 205, rfl⟩
abbrev main_v160 : Ref sig .tc := ⟨.hbm, 206, rfl⟩
abbrev main_c_36 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_cst_37 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg2_1 : Ref sig .tc := ⟨.vmem, 46, rfl⟩
abbrev cc7_stg0_0 : Ref sig .tc := ⟨.vmem, 47, rfl⟩
abbrev cc7_stg0_1 : Ref sig .tc := ⟨.vmem, 48, rfl⟩
abbrev cc7_stg1_0 : Ref sig .tc := ⟨.vmem, 49, rfl⟩
abbrev cc7_stg1_1 : Ref sig .tc := ⟨.vmem, 50, rfl⟩
abbrev cc7_stg2_0 : Ref sig .tc := ⟨.vmem, 51, rfl⟩
abbrev cc7_stg2_1 : Ref sig .tc := ⟨.vmem, 52, rfl⟩
abbrev cc7_stg3_0 : Ref sig .tc := ⟨.vmem, 53, rfl⟩
abbrev cc7_stg4_0 : Ref sig .tc := ⟨.vmem, 54, rfl⟩
abbrev cc7_stg4_1 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem2_1 : DmaSem sig := 46
abbrev cc7_sem0_0 : DmaSem sig := 47
abbrev cc7_sem0_1 : DmaSem sig := 48
abbrev cc7_sem1_0 : DmaSem sig := 49
abbrev cc7_sem1_1 : DmaSem sig := 50
abbrev cc7_sem2_0 : DmaSem sig := 51
abbrev cc7_sem2_1 : DmaSem sig := 52
abbrev cc7_sem3_0 : DmaSem sig := 53
abbrev cc7_sem4_0 : DmaSem sig := 54
abbrev cc7_sem4_1 : DmaSem sig := 55

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  dot_S5000x128_S128x128_S5000x128_1_0_0_1_n_n_wf : DotDims.WF S5000x128 S128x128 S5000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S100000x128.size a
  hwx5_4 : ∀ i : grid5.Coords, EltTy.bits .f32 = 32 ∨ (Rect.block (s := S100000x128) S5000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S100000x128.size a
  hwx6_2 : ∀ i : grid6.Coords, EltTy.bits .f32 = 32 ∨ (Rect.block (s := S100000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S100000x128.size a
  hwx7_1 : ∀ i : grid7.Coords, EltTy.bits .f32 = 32 ∨ (Rect.block (s := S100000x128) S5000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x1.size a ≤ S100000x1.size a
  hwx7_2 : ∀ i : grid7.Coords, EltTy.bits .f32 = 32 ∨ (Rect.block (s := S100000x1) S5000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x128.size a ≤ S100000x128.size a
  hwx7_4 : ∀ i : grid7.Coords, EltTy.bits .f32 = 32 ∨ (Rect.block (s := S100000x128) S5000x128.size (cc7_transform_4 i) (hinb7_4 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v83) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v85) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v86) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v87) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_arg2) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg4) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v92) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v127) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v92) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v129) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v130) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v131) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v131) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg6) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v136) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v171) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v136) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v173) S5000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v174) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v175) S5000x128.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 246
  | .vmem => 0
  | .smem => 0
  | _ => 0

abbrev hbmTy0_0 (i : Nat) : BufTy := match i % 128 with
  | 0 => ⟨S100000x128, .f32⟩
  | 1 => ⟨S2x1600000, .i32⟩
  | 2 => ⟨S100000x128, .f32⟩
  | 3 => ⟨S2x1600000, .i32⟩
  | 4 => ⟨S128x128, .f32⟩
  | 5 => ⟨S128, .f32⟩
  | 6 => ⟨S128x128, .f32⟩
  | 7 => ⟨S128, .f32⟩
  | 8 => ⟨S1x1600000, .i32⟩
  | 9 => ⟨S1600000, .i32⟩
  | 10 => ⟨S1x1600000, .i32⟩
  | 11 => ⟨S1600000, .i32⟩
  | 12 => ⟨S100000x128, .f32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .f32⟩
  | 22 => ⟨S100000, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S1600000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x128, .f32⟩
  | 51 => ⟨S1600000x1, .f32⟩
  | 52 => ⟨S1600000x128, .f32⟩
  | 53 => ⟨S1600000x128, .f32⟩
  | 54 => ⟨S_, .f32⟩
  | 55 => ⟨S100000x128, .f32⟩
  | 56 => ⟨S1600000x1, .i32⟩
  | 57 => ⟨S100000x128, .f32⟩
  | 58 => ⟨S100000, .f32⟩
  | 59 => ⟨S100000x1, .f32⟩
  | 60 => ⟨S100000x128, .f32⟩
  | 61 => ⟨S100000x128, .f32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S1x1600000, .i32⟩
  | 70 => ⟨S1600000, .i32⟩
  | 71 => ⟨S1x1600000, .i32⟩
  | 72 => ⟨S1600000, .i32⟩
  | 73 => ⟨S100000x128, .f32⟩
  | 74 => ⟨S_, .f32⟩
  | 75 => ⟨S1600000, .f32⟩
  | 76 => ⟨S_, .f32⟩
  | 77 => ⟨S100000, .f32⟩
  | 78 => ⟨S1600000x1, .i32⟩
  | 79 => ⟨S100000, .f32⟩
  | 80 => ⟨S_, .f32⟩
  | 81 => ⟨S100000, .f32⟩
  | 82 => ⟨S100000, .f32⟩
  | 83 => ⟨S100000, .f32⟩
  | 84 => ⟨S_, .i32⟩
  | 85 => ⟨S1600000, .i32⟩
  | 86 => ⟨S1600000, .i1⟩
  | 87 => ⟨S_, .i32⟩
  | 88 => ⟨S1600000, .i32⟩
  | 89 => ⟨S1600000, .i32⟩
  | 90 => ⟨S1600000, .i32⟩
  | 91 => ⟨S1600000x1, .i32⟩
  | 92 => ⟨S1600000, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000, .f32⟩
  | 102 => ⟨S1600000, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000x128, .f32⟩
  | 112 => ⟨S1600000x1, .f32⟩
  | 113 => ⟨S1600000x128, .f32⟩
  | 114 => ⟨S1600000x128, .f32⟩
  | 115 => ⟨S_, .f32⟩
  | 116 => ⟨S100000x128, .f32⟩
  | 117 => ⟨S1600000x1, .i32⟩
  | 118 => ⟨S100000x128, .f32⟩
  | 119 => ⟨S100000, .f32⟩
  | 120 => ⟨S100000x1, .f32⟩
  | 121 => ⟨S100000x128, .f32⟩
  | 122 => ⟨S100000x128, .f32⟩
  | 123 => ⟨S100000x128, .f32⟩
  | 124 => ⟨S1x128, .f32⟩
  | 125 => ⟨S100000x128, .f32⟩
  | 126 => ⟨S100000x128, .f32⟩
  | 127 => ⟨S1x1600000, .i32⟩
  | _ => ⟨S100000x128, .f32⟩

abbrev hbmTy0_1 (i : Nat) : BufTy := match i % 128 with
  | 0 => ⟨S1600000, .i32⟩
  | 1 => ⟨S1x1600000, .i32⟩
  | 2 => ⟨S1600000, .i32⟩
  | 3 => ⟨S100000x128, .f32⟩
  | 4 => ⟨S_, .f32⟩
  | 5 => ⟨S1600000, .f32⟩
  | 6 => ⟨S_, .f32⟩
  | 7 => ⟨S100000, .f32⟩
  | 8 => ⟨S1600000x1, .i32⟩
  | 9 => ⟨S100000, .f32⟩
  | 10 => ⟨S_, .f32⟩
  | 11 => ⟨S100000, .f32⟩
  | 12 => ⟨S100000, .f32⟩
  | 13 => ⟨S100000, .f32⟩
  | 14 => ⟨S_, .i32⟩
  | 15 => ⟨S1600000, .i32⟩
  | 16 => ⟨S1600000, .i1⟩
  | 17 => ⟨S_, .i32⟩
  | 18 => ⟨S1600000, .i32⟩
  | 19 => ⟨S1600000, .i32⟩
  | 20 => ⟨S1600000, .i32⟩
  | 21 => ⟨S1600000x1, .i32⟩
  | 22 => ⟨S1600000, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000, .f32⟩
  | 32 => ⟨S1600000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000x128, .f32⟩
  | 42 => ⟨S1600000x1, .f32⟩
  | 43 => ⟨S1600000x128, .f32⟩
  | 44 => ⟨S1600000x128, .f32⟩
  | 45 => ⟨S_, .f32⟩
  | 46 => ⟨S100000x128, .f32⟩
  | 47 => ⟨S1600000x1, .i32⟩
  | 48 => ⟨S100000x128, .f32⟩
  | 49 => ⟨S100000, .f32⟩
  | 50 => ⟨S100000x1, .f32⟩
  | 51 => ⟨S100000x128, .f32⟩
  | 52 => ⟨S100000x128, .f32⟩
  | 53 => ⟨S100000x128, .f32⟩
  | 54 => ⟨S1x128, .f32⟩
  | 55 => ⟨S100000x128, .f32⟩
  | 56 => ⟨S100000x128, .f32⟩
  | 57 => ⟨S_, .f32⟩
  | 58 => ⟨S100000x128, .f32⟩
  | 59 => ⟨S100000x128, .f32⟩
  | 60 => ⟨S1x1600000, .i32⟩
  | 61 => ⟨S1600000, .i32⟩
  | 62 => ⟨S1x1600000, .i32⟩
  | 63 => ⟨S1600000, .i32⟩
  | 64 => ⟨S100000x128, .f32⟩
  | 65 => ⟨S_, .f32⟩
  | 66 => ⟨S1600000, .f32⟩
  | 67 => ⟨S_, .f32⟩
  | 68 => ⟨S100000, .f32⟩
  | 69 => ⟨S1600000x1, .i32⟩
  | 70 => ⟨S100000, .f32⟩
  | 71 => ⟨S_, .f32⟩
  | 72 => ⟨S100000, .f32⟩
  | 73 => ⟨S100000, .f32⟩
  | 74 => ⟨S100000, .f32⟩
  | 75 => ⟨S_, .i32⟩
  | 76 => ⟨S1600000, .i32⟩
  | 77 => ⟨S1600000, .i1⟩
  | 78 => ⟨S_, .i32⟩
  | 79 => ⟨S1600000, .i32⟩
  | 80 => ⟨S1600000, .i32⟩
  | 81 => ⟨S1600000, .i32⟩
  | 82 => ⟨S1600000x1, .i32⟩
  | 83 => ⟨S1600000, .f32⟩
  | 84 => ⟨S_, .i32⟩
  | 85 => ⟨S1600000, .i32⟩
  | 86 => ⟨S1600000, .i1⟩
  | 87 => ⟨S_, .i32⟩
  | 88 => ⟨S1600000, .i32⟩
  | 89 => ⟨S1600000, .i32⟩
  | 90 => ⟨S1600000, .i32⟩
  | 91 => ⟨S1600000x1, .i32⟩
  | 92 => ⟨S1600000, .f32⟩
  | 93 => ⟨S1600000, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1600000x128, .f32⟩
  | 103 => ⟨S1600000x1, .f32⟩
  | 104 => ⟨S1600000x128, .f32⟩
  | 105 => ⟨S1600000x128, .f32⟩
  | 106 => ⟨S_, .f32⟩
  | 107 => ⟨S100000x128, .f32⟩
  | 108 => ⟨S1600000x1, .i32⟩
  | 109 => ⟨S100000x128, .f32⟩
  | 110 => ⟨S100000, .f32⟩
  | 111 => ⟨S100000x1, .f32⟩
  | 112 => ⟨S100000x128, .f32⟩
  | 113 => ⟨S100000x128, .f32⟩
  | 114 => ⟨S100000x128, .f32⟩
  | 115 => ⟨S1x128, .f32⟩
  | 116 => ⟨S100000x128, .f32⟩
  | 117 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_8 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_11 : Ref sig .tc := ⟨.hbm, 84, rfl⟩
abbrev main_v61 : Ref sig .tc := ⟨.hbm, 85, rfl⟩
abbrev main_v62 : Ref sig .tc := ⟨.hbm, 86, rfl⟩
abbrev main_c_12 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_13 : Ref sig .tc := ⟨.hbm, 93, rfl⟩
abbrev main_v68 : Ref sig .tc := ⟨.hbm, 94, rfl⟩
abbrev main_v69 : Ref sig .tc := ⟨.hbm, 95, rfl⟩
abbrev main_c_14 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_c_15 : Ref sig .tc := ⟨.hbm, 103, rfl⟩
abbrev main_v76 : Ref sig .tc := ⟨.hbm, 104, rfl⟩
abbrev main_v77 : Ref sig .tc := ⟨.hbm, 105, rfl⟩
abbrev main_c_16 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_17 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_cst_18 : Ref sig .tc := ⟨.hbm, 132, rfl⟩
abbrev main_v102 : Ref sig .tc := ⟨.hbm, 133, rfl⟩
abbrev main_cst_19 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_cst_20 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_c_21 : Ref sig .tc := ⟨.hbm, 142, rfl⟩
abbrev main_v109 : Ref sig .tc := ⟨.hbm, 143, rfl⟩
abbrev main_v110 : Ref sig .tc := ⟨.hbm, 144, rfl⟩
abbrev main_c_22 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_c_23 : Ref sig .tc := ⟨.hbm, 151, rfl⟩
abbrev main_v116 : Ref sig .tc := ⟨.hbm, 152, rfl⟩
abbrev main_v117 : Ref sig .tc := ⟨.hbm, 153, rfl⟩
abbrev main_c_24 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_c_25 : Ref sig .tc := ⟨.hbm, 161, rfl⟩
abbrev main_v124 : Ref sig .tc := ⟨.hbm, 162, rfl⟩
abbrev main_v125 : Ref sig .tc := ⟨.hbm, 163, rfl⟩
abbrev main_c_26 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_cst_27 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_call1_cst : Ref sig .tc := ⟨.hbm, 185, rfl⟩
abbrev main_call1_v0 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_cst_28 : Ref sig .tc := ⟨.hbm, 193, rfl⟩
abbrev main_v151 : Ref sig .tc := ⟨.hbm, 194, rfl⟩
abbrev main_cst_29 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_cst_30 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_c_31 : Ref sig .tc := ⟨.hbm, 203, rfl⟩
abbrev main_v158 : Ref sig .tc := ⟨.hbm, 204, rfl⟩
abbrev main_v159 : Ref sig .tc := ⟨.hbm, 205, rfl⟩
abbrev main_c_32 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_c_33 : Ref sig .tc := ⟨.hbm, 212, rfl⟩
abbrev main_v165 : Ref sig .tc := ⟨.hbm, 213, rfl⟩
abbrev main_v166 : Ref sig .tc := ⟨.hbm, 214, rfl⟩
abbrev main_c_34 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_c_35 : Ref sig .tc := ⟨.hbm, 222, rfl⟩
abbrev main_v173 : Ref sig .tc := ⟨.hbm, 223, rfl⟩
abbrev main_v174 : Ref sig .tc := ⟨.hbm, 224, rfl⟩
abbrev main_c_36 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_v181 : Ref sig .tc := ⟨.hbm, 232, rfl⟩
abbrev main_v182 : Ref sig .tc := ⟨.hbm, 233, rfl⟩
abbrev main_cst_37 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KernelRun.lean ====
/-
  The idealized kernel's run with its two results named.

  The program is eight kernel regions among stretches of host operations. Its buffer contents at each boundary are a fold
  from the launch memory: a stretch applies its operations, a region replaces each of its arrays by what its write-backs
  leave. Every weakly fair execution terminates without a fault in a state whose buffers hold the last boundary's
  contents; read at the two result buffers and at the eight arguments (which no operation and no region writes), this is
  the run the value comparison starts from: each result is the last boundary's contents at its buffer.
-/
import proofs.«180140_j70136815943749_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting, with
    each result buffer at the last boundary's contents and the arguments as launched. -/
theorem run_named : θ_run defs (onTc (τ := τ) (main (F := F))) ⟨m, fun _ => 0, ρ⟩ (fun r => ∀ c : Dev nD,
      r.2.mem ((c.tc : Thread nD τ).loc main_v87) = W16 m ρ c (Proc.devRef .tc main_v87)
      ∧ r.2.mem ((c.tc : Thread nD τ).loc main_v175) = W16 m ρ c (Proc.devRef .tc main_v175)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v87 (by decide)),
       h c _ (mem_uc main_v175 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c)⟩)

end Cert.KernelIdeal.Named

end
-- ==== Proof.Boundaries.lean ====
/-
  The argument arrays at the boundaries between the program's segments.

  No host operation and no region writes an argument array: a region reads it through an input window (whose array the
  write-backs leave as entered) or does not touch it, and every host operation writes its own fresh result. So the
  contents of an argument's buffer at any boundary are its launch contents; stated here at each boundary after a region
  where a later stretch or region reads that argument.
-/
import proofs.«180140_j70136815943749_1_alg».proof.Proof.Gen.KernelIdeal.Frame
import Idealize.ShloMosaic.Lib.StableHlo.Run

set_option maxRecDepth 16384

noncomputable section

namespace Cert.KernelIdeal.Boundaries

open Cert.KernelIdeal Cert.KernelIdeal.Gen
open Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

/-- Argument 1 after region 0: as launched. -/
theorem W2_arg1 (c : Dev nD) : W2 m ρ c (Proc.devRef .tc main_arg1) = m ((c : Thread nD τ).loc main_arg1) := by
  rw [W2_of_ne m ρ c main_arg1 (by decide)]
  show StableHlo.after hostOps0 (W0 m ρ c) (Proc.devRef .tc main_arg1) = _
  after_results
/-- Argument 2 after region 0: as launched. -/
theorem W2_arg2 (c : Dev nD) : W2 m ρ c (Proc.devRef .tc main_arg2) = m ((c : Thread nD τ).loc main_arg2) := by
  rw [W2_of_ne m ρ c main_arg2 (by decide)]
  show StableHlo.after hostOps0 (W0 m ρ c) (Proc.devRef .tc main_arg2) = _
  after_results
/-- Argument 3 after region 0: as launched. -/
theorem W2_arg3 (c : Dev nD) : W2 m ρ c (Proc.devRef .tc main_arg3) = m ((c : Thread nD τ).loc main_arg3) := by
  rw [W2_of_ne m ρ c main_arg3 (by decide)]
  show StableHlo.after hostOps0 (W0 m ρ c) (Proc.devRef .tc main_arg3) = _
  after_results
/-- Argument 4 after region 0: as launched. -/
theorem W2_arg4 (c : Dev nD) : W2 m ρ c (Proc.devRef .tc main_arg4) = m ((c : Thread nD τ).loc main_arg4) := by
  rw [show W2 m ρ c (Proc.devRef .tc main_arg4) = W1 m ρ c (Proc.devRef .tc main_arg4) from (W2_arr m ρ c 1).trans (((dat0 (V1 m ρ) c).arrAt_in 1 rfl _).trans (A_eq0 (V1 m ρ) c 1))]
  show StableHlo.after hostOps0 (W0 m ρ c) (Proc.devRef .tc main_arg4) = _
  after_results
/-- Argument 5 after region 0: as launched. -/
theorem W2_arg5 (c : Dev nD) : W2 m ρ c (Proc.devRef .tc main_arg5) = m ((c : Thread nD τ).loc main_arg5) := by
  rw [W2_of_ne m ρ c main_arg5 (by decide)]
  show StableHlo.after hostOps0 (W0 m ρ c) (Proc.devRef .tc main_arg5) = _
  after_results
/-- Argument 6 after region 0: as launched. -/
theorem W2_arg6 (c : Dev nD) : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  after_results
/-- Argument 7 after region 0: as launched. -/
theorem W2_arg7 (c : Dev nD) : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  after_results
/-- Argument 1 after region 1: as launched. -/
theorem W4_arg1 (c : Dev nD) : W4 m ρ c (Proc.devRef .tc main_arg1) = m ((c : Thread nD τ).loc main_arg1) := by
  rw [W4_of_ne m ρ c main_arg1 (by decide)]
  show StableHlo.after hostOps1 (W2 m ρ c) (Proc.devRef .tc main_arg1) = _
  after_results
  exact W2_arg1 m ρ c
/-- Argument 2 after region 1: as launched. -/
theorem W4_arg2 (c : Dev nD) : W4 m ρ c (Proc.devRef .tc main_arg2) = m ((c : Thread nD τ).loc main_arg2) := by
  rw [W4_of_ne m ρ c main_arg2 (by decide)]
  show StableHlo.after hostOps1 (W2 m ρ c) (Proc.devRef .tc main_arg2) = _
  after_results
  exact W2_arg2 m ρ c
/-- Argument 3 after region 1: as launched. -/
theorem W4_arg3 (c : Dev nD) : W4 m ρ c (Proc.devRef .tc main_arg3) = m ((c : Thread nD τ).loc main_arg3) := by
  rw [W4_of_ne m ρ c main_arg3 (by decide)]
  show StableHlo.after hostOps1 (W2 m ρ c) (Proc.devRef .tc main_arg3) = _
  after_results
  exact W2_arg3 m ρ c
/-- Argument 4 after region 1: as launched. -/
theorem W4_arg4 (c : Dev nD) : W4 m ρ c (Proc.devRef .tc main_arg4) = m ((c : Thread nD τ).loc main_arg4) := by
  rw [W4_of_ne m ρ c main_arg4 (by decide)]
  show StableHlo.after hostOps1 (W2 m ρ c) (Proc.devRef .tc main_arg4) = _
  after_results
  exact W2_arg4 m ρ c
/-- Argument 5 after region 1: as launched. -/
theorem W4_arg5 (c : Dev nD) : W4 m ρ c (Proc.devRef .tc main_arg5) = m ((c : Thread nD τ).loc main_arg5) := by
  rw [W4_of_ne m ρ c main_arg5 (by decide)]
  show StableHlo.after hostOps1 (W2 m ρ c) (Proc.devRef .tc main_arg5) = _
  after_results
  exact W2_arg5 m ρ c
/-- Argument 6 after region 1: as launched. -/
theorem W4_arg6 (c : Dev nD) : W4 m ρ c (Proc.devRef .tc main_arg6) = m ((c : Thread nD τ).loc main_arg6) := by
  rw [W4_of_ne m ρ c main_arg6 (by decide)]
  show StableHlo.after hostOps1 (W2 m ρ c) (Proc.devRef .tc main_arg6) = _
  after_results
  exact W2_arg6 m ρ c
/-- Argument 7 after region 1: as launched. -/
theorem W4_arg7 (c : Dev nD) : W4 m ρ c (Proc.devRef .tc main_arg7) = m ((c : Thread nD τ).loc main_arg7) := by
  rw [W4_of_ne m ρ c main_arg7 (by decide)]
  show StableHlo.after hostOps1 (W2 m ρ c) (Proc.devRef .tc main_arg7) = _
  after_results
  exact W2_arg7 m ρ c
/-- Argument 2 after region 2: as launched. -/
theorem W6_arg2 (c : Dev nD) : W6 m ρ c (Proc.devRef .tc main_arg2) = m ((c : Thread nD τ).loc main_arg2) := by
  rw [W6_of_ne m ρ c main_arg2 (by decide)]
  show StableHlo.after hostOps2 (W4 m ρ c) (Proc.devRef .tc main_arg2) = _
  after_results
  exact W4_arg2 m ρ c
/-- Argument 3 after region 2: as launched. -/
theorem W6_arg3 (c : Dev nD) : W6 m ρ c (Proc.devRef .tc main_arg3) = m ((c : Thread nD τ).loc main_arg3) := by
  rw [W6_of_ne m ρ c main_arg3 (by decide)]
  show StableHlo.after hostOps2 (W4 m ρ c) (Proc.devRef .tc main_arg3) = _
  after_results
  exact W4_arg3 m ρ c
/-- Argument 4 after region 2: as launched. -/
theorem W6_arg4 (c : Dev nD) : W6 m ρ c (Proc.devRef .tc main_arg4) = m ((c : Thread nD τ).loc main_arg4) := by
  rw [W6_of_ne m ρ c main_arg4 (by decide)]
  show StableHlo.after hostOps2 (W4 m ρ c) (Proc.devRef .tc main_arg4) = _
  after_results
  exact W4_arg4 m ρ c
/-- Argument 5 after region 2: as launched. -/
theorem W6_arg5 (c : Dev nD) : W6 m ρ c (Proc.devRef .tc main_arg5) = m ((c : Thread nD τ).loc main_arg5) := by
  rw [W6_of_ne m ρ c main_arg5 (by decide)]
  show StableHlo.after hostOps2 (W4 m ρ c) (Proc.devRef .tc main_arg5) = _
  after_results
  exact W4_arg5 m ρ c
/-- Argument 6 after region 2: as launched. -/
theorem W6_arg6 (c : Dev nD) : W6 m ρ c (Proc.devRef .tc main_arg6) = m ((c : Thread nD τ).loc main_arg6) := by
  rw [show W6 m ρ c (Proc.devRef .tc main_arg6) = W5 m ρ c (Proc.devRef .tc main_arg6) from (W6_arr m ρ c 1).trans (((dat2 (V5 m ρ) c).arrAt_in 1 rfl _).trans (A_eq2 (V5 m ρ) c 1))]
  show StableHlo.after hostOps2 (W4 m ρ c) (Proc.devRef .tc main_arg6) = _
  after_results
  exact W4_arg6 m ρ c
/-- Argument 7 after region 2: as launched. -/
theorem W6_arg7 (c : Dev nD) : W6 m ρ c (Proc.devRef .tc main_arg7) = m ((c : Thread nD τ).loc main_arg7) := by
  rw [W6_of_ne m ρ c main_arg7 (by decide)]
  show StableHlo.after hostOps2 (W4 m ρ c) (Proc.devRef .tc main_arg7) = _
  after_results
  exact W4_arg7 m ρ c
/-- Argument 2 after region 3: as launched. -/
theorem W8_arg2 (c : Dev nD) : W8 m ρ c (Proc.devRef .tc main_arg2) = m ((c : Thread nD τ).loc main_arg2) := by
  rw [W8_of_ne m ρ c main_arg2 (by decide)]
  show StableHlo.after hostOps3 (W6 m ρ c) (Proc.devRef .tc main_arg2) = _
  after_results
  exact W6_arg2 m ρ c
/-- Argument 3 after region 3: as launched. -/
theorem W8_arg3 (c : Dev nD) : W8 m ρ c (Proc.devRef .tc main_arg3) = m ((c : Thread nD τ).loc main_arg3) := by
  rw [W8_of_ne m ρ c main_arg3 (by decide)]
  show StableHlo.after hostOps3 (W6 m ρ c) (Proc.devRef .tc main_arg3) = _
  after_results
  exact W6_arg3 m ρ c
/-- Argument 4 after region 3: as launched. -/
theorem W8_arg4 (c : Dev nD) : W8 m ρ c (Proc.devRef .tc main_arg4) = m ((c : Thread nD τ).loc main_arg4) := by
  rw [W8_of_ne m ρ c main_arg4 (by decide)]
  show StableHlo.after hostOps3 (W6 m ρ c) (Proc.devRef .tc main_arg4) = _
  after_results
  exact W6_arg4 m ρ c
/-- Argument 5 after region 3: as launched. -/
theorem W8_arg5 (c : Dev nD) : W8 m ρ c (Proc.devRef .tc main_arg5) = m ((c : Thread nD τ).loc main_arg5) := by
  rw [W8_of_ne m ρ c main_arg5 (by decide)]
  show StableHlo.after hostOps3 (W6 m ρ c) (Proc.devRef .tc main_arg5) = _
  after_results
  exact W6_arg5 m ρ c
/-- Argument 6 after region 3: as launched. -/
theorem W8_arg6 (c : Dev nD) : W8 m ρ c (Proc.devRef .tc main_arg6) = m ((c : Thread nD τ).loc main_arg6) := by
  rw [W8_of_ne m ρ c main_arg6 (by decide)]
  show StableHlo.after hostOps3 (W6 m ρ c) (Proc.devRef .tc main_arg6) = _
  after_results
  exact W6_arg6 m ρ c
/-- Argument 7 after region 3: as launched. -/
theorem W8_arg7 (c : Dev nD) : W8 m ρ c (Proc.devRef .tc main_arg7) = m ((c : Thread nD τ).loc main_arg7) := by
  rw [W8_of_ne m ρ c main_arg7 (by decide)]
  show StableHlo.after hostOps3 (W6 m ρ c) (Proc.devRef .tc main_arg7) = _
  after_results
  exact W6_arg7 m ρ c
/-- Argument 3 after region 4: as launched. -/
theorem W10_arg3 (c : Dev nD) : W10 m ρ c (Proc.devRef .tc main_arg3) = m ((c : Thread nD τ).loc main_arg3) := by
  rw [W10_of_ne m ρ c main_arg3 (by decide)]
  show StableHlo.after hostOps4 (W8 m ρ c) (Proc.devRef .tc main_arg3) = _
  after_results
  exact W8_arg3 m ρ c
/-- Argument 5 after region 4: as launched. -/
theorem W10_arg5 (c : Dev nD) : W10 m ρ c (Proc.devRef .tc main_arg5) = m ((c : Thread nD τ).loc main_arg5) := by
  rw [W10_of_ne m ρ c main_arg5 (by decide)]
  show StableHlo.after hostOps4 (W8 m ρ c) (Proc.devRef .tc main_arg5) = _
  after_results
  exact W8_arg5 m ρ c
/-- Argument 6 after region 4: as launched. -/
theorem W10_arg6 (c : Dev nD) : W10 m ρ c (Proc.devRef .tc main_arg6) = m ((c : Thread nD τ).loc main_arg6) := by
  rw [W10_of_ne m ρ c main_arg6 (by decide)]
  show StableHlo.after hostOps4 (W8 m ρ c) (Proc.devRef .tc main_arg6) = _
  after_results
  exact W8_arg6 m ρ c
/-- Argument 7 after region 4: as launched. -/
theorem W10_arg7 (c : Dev nD) : W10 m ρ c (Proc.devRef .tc main_arg7) = m ((c : Thread nD τ).loc main_arg7) := by
  rw [W10_of_ne m ρ c main_arg7 (by decide)]
  show StableHlo.after hostOps4 (W8 m ρ c) (Proc.devRef .tc main_arg7) = _
  after_results
  exact W8_arg7 m ρ c
/-- Argument 3 after region 5: as launched. -/
theorem W12_arg3 (c : Dev nD) : W12 m ρ c (Proc.devRef .tc main_arg3) = m ((c : Thread nD τ).loc main_arg3) := by
  rw [W12_of_ne m ρ c main_arg3 (by decide)]
  show StableHlo.after hostOps5 (W10 m ρ c) (Proc.devRef .tc main_arg3) = _
  after_results
  exact W10_arg3 m ρ c
/-- Argument 6 after region 5: as launched. -/
theorem W12_arg6 (c : Dev nD) : W12 m ρ c (Proc.devRef .tc main_arg6) = m ((c : Thread nD τ).loc main_arg6) := by
  rw [W12_of_ne m ρ c main_arg6 (by decide)]
  show StableHlo.after hostOps5 (W10 m ρ c) (Proc.devRef .tc main_arg6) = _
  after_results
  exact W10_arg6 m ρ c
/-- Argument 7 after region 5: as launched. -/
theorem W12_arg7 (c : Dev nD) : W12 m ρ c (Proc.devRef .tc main_arg7) = m ((c : Thread nD τ).loc main_arg7) := by
  rw [W12_of_ne m ρ c main_arg7 (by decide)]
  show StableHlo.after hostOps5 (W10 m ρ c) (Proc.devRef .tc main_arg7) = _
  after_results
  exact W10_arg7 m ρ c
/-- Argument 7 after region 6: as launched. -/
theorem W14_arg7 (c : Dev nD) : W14 m ρ c (Proc.devRef .tc main_arg7) = m ((c : Thread nD τ).loc main_arg7) := by
  rw [W14_of_ne m ρ c main_arg7 (by decide)]
  show StableHlo.after hostOps6 (W12 m ρ c) (Proc.devRef .tc main_arg7) = _
  after_results
  exact W12_arg7 m ρ c

end Cert.KernelIdeal.Boundaries

end
-- ==== Proof.LibOneRowMatrix.lean ====
/-
  A bias as a one-row matrix, read at an entry.

  A dense layer adds its bias to every row. The vector of length n is first viewed as a 1 × n matrix, whose entry
  (0, q) is the vector's entry q, and that one-row matrix is then broadcast down the rows of an m × n array, whose
  entry (p, q) is the row's entry (0, q). Any extents and any element type; imports only the library.
-/
import Idealize.ShloMosaic.Lib.Pipeline.Value
import Idealize.ShloMosaic.Lib.ValueIdx

namespace Idealize.ShloMosaic.OneRowMatrix

open Idealize.ShloMosaic Idealize.ShloMosaic.ValueIdx

/-- A vector viewed as a one-row matrix reads, at (0, q), the vector at q. -/
theorem row_of_vector {α : Type} {n : Nat} (b : (⟨1, ![n]⟩ : Shape).Idx → α)
    (h : (⟨1, ![n]⟩ : Shape).ShapeCasts ⟨2, ![1, n]⟩) (q : Fin n) :
    shapeCast (⟨2, ![1, n]⟩ : Shape) b h (ix2 0 q) = b (ix1 q) := by
  refine shapeCast_apply b h (ix2 0 q) (ix1 q) ?_
  rw [Shape.rowMajor_val_two, Shape.rowMajor_val_one]
  show q.val = 0 * n + q.val
  omega

/-- A one-row matrix broadcast down the rows reads, at (p, q), its row at (0, q). -/
theorem broadcast_row_apply {α : Type} {m n : Nat} (b : (⟨2, ![1, n]⟩ : Shape).Idx → α)
    (h : (⟨2, ![1, n]⟩ : Shape).Broadcasts ⟨2, ![m, n]⟩) (p : Fin m) (q : Fin n) :
    broadcastTo (⟨2, ![m, n]⟩ : Shape) b h (ix2 p q) = b (ix2 0 q) :=
  broadcastTo_apply b h (ix2 p q) (ix2 0 q) (fun a => by
    match a with
    | ⟨0, _⟩ => show (0 : Nat) = if (1 : Nat) = 1 then 0 else _; rw [if_pos rfl]
    | ⟨1, _⟩ =>
      show q.val = if n = 1 then 0 else q.val
      split
      · have := q.isLt; omega
      · rfl)

end Idealize.ShloMosaic.OneRowMatrix
-- ==== Proof.Stretches1.lean ====
/-
  The host stretches of one graph's two layers, read at the buffers the kernel regions take.

  Between its kernel regions the program runs the same host operations as the reference: it slices the edge list into its
  two index rows, counts degrees by a scatter-add of ones, takes inverse square roots, gathers them and the transformed
  features along the edges, scatters the weighted messages back to the nodes, and squares the inverse roots into a one-column
  array. Given that the transformed features entering a stretch are the reference's, every array the next region takes is
  the reference's value of the same stage: the operations are the same, applied to equal operands. The bias enters the
  kernel as a one-row reshape of the bias vector and the reference as a broadcast of it onto a new leading axis: one array.
-/
import proofs.«180140_j70136815943749_1_alg».proof.Proof.Boundaries
import proofs.«180140_j70136815943749_1_alg».proof.Proof.Gen.ReferenceIdeal.Read
import proofs.«180140_j70136815943749_1_alg».proof.Proof.LibOneRowMatrix

set_option maxRecDepth 16384

noncomputable section

namespace Cert.KernelIdeal.Graph1

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- A bias vector reshaped to one row is the vector broadcast onto a new leading axis: entry `(0, q)` of either is the
    vector's entry `q`. -/
theorem bias_row (v : FVec Ideal S128 .f32) :
    shapeCast S1x128 v shapeCasts_S128_S1x128 = Cert.ReferenceIdeal.Read.val_main_v45 (F := Ideal) v := by
  funext i
  obtain ⟨p, q, rfl⟩ : ∃ (p : Fin 1) (q : Fin 128), i = ix2 p q := ⟨i 0, i 1, eq_ix2 i⟩
  obtain rfl : p = 0 := Subsingleton.elim _ _
  rw [Cert.ReferenceIdeal.Read.val_main_v45_apply]
  refine (OneRowMatrix.row_of_vector (n := 128) v shapeCasts_S128_S1x128 q).trans ?_
  exact congrArg v (funext fun a => Fin.ext (by match a with | ⟨0, _⟩ => rfl))

/-- Layer one's source index row: the reference's slice of the same argument. -/
theorem first_src :
    W1 m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  after_results
  rfl

/-- Layer one's target index row: the reference's slice of the same argument. -/
theorem first_dst :
    W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results
  rfl

/-- Argument 0 when the first linear region is entered: as launched. -/
theorem entry1_arg0 :
    W1 m ρ c (Proc.devRef .tc main_arg0) = (m ((c : Thread nD τ).loc main_arg0)) := by
  show StableHlo.after hostOps0 (W0 m ρ c) (Proc.devRef .tc main_arg0) = _
  after_results

/-- Argument 4 when the first linear region is entered: as launched. -/
theorem entry1_arg4 :
    W1 m ρ c (Proc.devRef .tc main_arg4) = (m ((c : Thread nD τ).loc main_arg4)) := by
  show StableHlo.after hostOps0 (W0 m ρ c) (Proc.devRef .tc main_arg4) = _
  after_results

/-- Layer one's aggregated messages: the reference's, the transformed features being the reference's. -/
theorem layer1_agg (h : W2 m ρ c (Proc.devRef .tc main_v4) = Cert.ReferenceIdeal.Read.val_main_v4 (F := Ideal) (m ((c : Thread nD τ).loc main_arg0)) (m ((c : Thread nD τ).loc main_arg4))) :
    W3 m ρ c (Proc.devRef .tc main_v39) = Cert.ReferenceIdeal.Read.val_main_v39 (F := Ideal) (m ((c : Thread nD τ).loc main_arg0)) (m ((c : Thread nD τ).loc main_arg1)) (m ((c : Thread nD τ).loc main_arg4)) := by
  show StableHlo.after hostOps1 (W2 m ρ c) (Proc.devRef .tc main_v39) = _
  after_results_simp
  rw [h, (W2_of_ne m ρ c main_v1 (by decide)).trans (first_src m ρ c), (W2_of_ne m ρ c main_v3 (by decide)).trans (first_dst m ρ c)]
  rfl

/-- Layer one's node weights (squared inverse root degrees, one column): the reference's. -/
theorem layer1_weight :
    W3 m ρ c (Proc.devRef .tc main_v41) = Cert.ReferenceIdeal.Read.val_main_v41 (F := Ideal) (m ((c : Thread nD τ).loc main_arg1)) := by
  show StableHlo.after hostOps1 (W2 m ρ c) (Proc.devRef .tc main_v41) = _
  after_results_simp
  rw [(W2_of_ne m ρ c main_v3 (by decide)).trans (first_dst m ρ c)]
  rfl

/-- Layer one's bias as a one-row array: the reference's. -/
theorem layer1_bias :
    W3 m ρ c (Proc.devRef .tc main_v42) = Cert.ReferenceIdeal.Read.val_main_v45 (F := Ideal) (m ((c : Thread nD τ).loc main_arg5)) := by
  show StableHlo.after hostOps1 (W2 m ρ c) (Proc.devRef .tc main_v42) = _
  after_results
  rw [Boundaries.W2_arg5 m ρ c]
  exact bias_row (m ((c : Thread nD τ).loc main_arg5))

/-- The transformed features pass the stretch unchanged. -/
theorem layer1_feat (h : W2 m ρ c (Proc.devRef .tc main_v4) = Cert.ReferenceIdeal.Read.val_main_v4 (F := Ideal) (m ((c : Thread nD τ).loc main_arg0)) (m ((c : Thread nD τ).loc main_arg4))) :
    W3 m ρ c (Proc.devRef .tc main_v4) = Cert.ReferenceIdeal.Read.val_main_v4 (F := Ideal) (m ((c : Thread nD τ).loc main_arg0)) (m ((c : Thread nD τ).loc main_arg4)) := by
  show StableHlo.after hostOps1 (W2 m ρ c) (Proc.devRef .tc main_v4) = _
  after_results
  exact h

/-- Layer two's source index row: the reference's slice of the same argument. -/
theorem second_src :
    W5 m ρ c (Proc.devRef .tc main_v45) = Cert.ReferenceIdeal.Read.val_main_v50 (F := Ideal) (m ((c : Thread nD τ).loc main_arg1)) := by
  show StableHlo.after hostOps2 (W4 m ρ c) (Proc.devRef .tc main_v45) = _
  after_results
  rw [Boundaries.W4_arg1 m ρ c]
  rfl

/-- Layer two's target index row: the reference's slice of the same argument. -/
theorem second_dst :
    W5 m ρ c (Proc.devRef .tc main_v47) = Cert.ReferenceIdeal.Read.val_main_v52 (F := Ideal) (m ((c : Thread nD τ).loc main_arg1)) := by
  show StableHlo.after hostOps2 (W4 m ρ c) (Proc.devRef .tc main_v47) = _
  after_results
  rw [Boundaries.W4_arg1 m ρ c]
  rfl

/-- Layer one's output passes the stretch unchanged. -/
theorem entry2_hidden :
    W5 m ρ c (Proc.devRef .tc main_v43) = W4 m ρ c (Proc.devRef .tc main_v43) := by
  show StableHlo.after hostOps2 (W4 m ρ c) (Proc.devRef .tc main_v43) = _
  after_results

/-- The second weight matrix when the second linear region is entered: as launched. -/
theorem entry2_arg6 :
    W5 m ρ c (Proc.devRef .tc main_arg6) = (m ((c : Thread nD τ).loc main_arg6)) := by
  show StableHlo.after hostOps2 (W4 m ρ c) (Proc.devRef .tc main_arg6) = _
  after_results
  exact Boundaries.W4_arg6 m ρ c

/-- Layer two's aggregated messages: the reference's, the transformed features being the reference's. -/
theorem layer2_agg (h : W6 m ρ c (Proc.devRef .tc main_v48) = Cert.ReferenceIdeal.Read.val_main_v53 (F := Ideal) (m ((c : Thread nD τ).loc main_arg0)) (m ((c : Thread nD τ).loc main_arg1)) (m ((c : Thread nD τ).loc main_arg4)) (m ((c : Thread nD τ).loc main_arg5)) (m ((c : Thread nD τ).loc main_arg6))) :
    W7 m ρ c (Proc.devRef .tc main_v83) = Cert.ReferenceIdeal.Read.val_main_v88 (F := Ideal) (m ((c : Thread nD τ).loc main_arg0)) (m ((c : Thread nD τ).loc main_arg1)) (m ((c : Thread nD τ).loc main_arg4)) (m ((c : Thread nD τ).loc main_arg5)) (m ((c : Thread nD τ).loc main_arg6)) := by
  show StableHlo.after hostOps3 (W6 m ρ c) (Proc.devRef .tc main_v83) = _
  after_results_simp
  rw [h, (W6_of_ne m ρ c main_v45 (by decide)).trans (second_src m ρ c), (W6_of_ne m ρ c main_v47 (by decide)).trans (second_dst m ρ c)]
  rfl

/-- Layer two's node weights: the reference's. -/
theorem layer2_weight :
    W7 m ρ c (Proc.devRef .tc main_v85) = Cert.ReferenceIdeal.Read.val_main_v90 (F := Ideal) (m ((c : Thread nD τ).loc main_arg1)) := by
  show StableHlo.after hostOps3 (W6 m ρ c) (Proc.devRef .tc main_v85) = _
  after_results_simp
  rw [(W6_of_ne m ρ c main_v47 (by decide)).trans (second_dst m ρ c)]
  rfl

/-- Layer two's bias as a one-row array: the reference's. -/
theorem layer2_bias :
    W7 m ρ c (Proc.devRef .tc main_v86) = Cert.ReferenceIdeal.Read.val_main_v94 (F := Ideal) (m ((c : Thread nD τ).loc main_arg7)) := by
  show StableHlo.after hostOps3 (W6 m ρ c) (Proc.devRef .tc main_v86) = _
  after_results
  rw [Boundaries.W6_arg7 m ρ c]
  exact bias_row (m ((c : Thread nD τ).loc main_arg7))

/-- The transformed features pass the stretch unchanged. -/
theorem layer2_feat (h : W6 m ρ c (Proc.devRef .tc main_v48) = Cert.ReferenceIdeal.Read.val_main_v53 (F := Ideal) (m ((c : Thread nD τ).loc main_arg0)) (m ((c : Thread nD τ).loc main_arg1)) (m ((c : Thread nD τ).loc main_arg4)) (m ((c : Thread nD τ).loc main_arg5)) (m ((c : Thread nD τ).loc main_arg6))) :
    W7 m ρ c (Proc.devRef .tc main_v48) = Cert.ReferenceIdeal.Read.val_main_v53 (F := Ideal) (m ((c : Thread nD τ).loc main_arg0)) (m ((c : Thread nD τ).loc main_arg1)) (m ((c : Thread nD τ).loc main_arg4)) (m ((c : Thread nD τ).loc main_arg5)) (m ((c : Thread nD τ).loc main_arg6)) := by
  show StableHlo.after hostOps3 (W6 m ρ c) (Proc.devRef .tc main_v48) = _
  after_results
  exact h

/-- The first graph's result is written by no later stretch and no later region: the last boundary holds what region three left. -/
theorem result_kept :
    W16 m ρ c (Proc.devRef .tc main_v87) = W8 m ρ c (Proc.devRef .tc main_v87) := by
  rw [W16_of_ne m ρ c main_v87 (by decide)]
  show StableHlo.after hostOps7 (W14 m ρ c) (Proc.devRef .tc main_v87) = _
  after_results
  rw [W14_of_ne m ρ c main_v87 (by decide)]
  show StableHlo.after hostOps6 (W12 m ρ c) (Proc.devRef .tc main_v87) = _
  after_results
  rw [W12_of_ne m ρ c main_v87 (by decide)]
  show StableHlo.after hostOps5 (W10 m ρ c) (Proc.devRef .tc main_v87) = _
  after_results
  rw [W10_of_ne m ρ c main_v87 (by decide)]
  show StableHlo.after hostOps4 (W8 m ρ c) (Proc.devRef .tc main_v87) = _
  after_results

end Cert.KernelIdeal.Graph1

end
-- ==== Proof.LibMatmulRowsByCols.lean ====
/-
  A matrix product into the zero accumulator, read at an entry.

  On the extended reals a `tpu.matmul` of an `[M, K]` left operand and a `[K, N]` right operand (the contraction on the
  left's second axis and the right's first, no batch axis), accumulated into the zero splat, is at entry `(p, q)` the
  plain sum `∑ₖ l(p, k) · r(k, q)`: no rounding, no order of accumulation. The dimension record is kept abstract; what
  is asked of it is that it contracts one axis of extent `K` and reads its operands at `(p, k)` and `(k, q)`, four
  facts a concrete record gives by unfolding. Imports only the library.
-/
import Idealize.ShloMosaic.PureOps.Ideal.Laws
import Idealize.ShloMosaic.Lib.ValueIdx

namespace Idealize.ShloMosaic.MatmulRowsByCols

open Idealize.ShloMosaic Idealize.ShloMosaic.ValueIdx

/-- `matmul D prec l r 0` at `(p, q)` is `∑ k, l (p, k) * r (k, q)`. -/
theorem matmul_zero_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂)
    (p : Fin M) (q : Fin N) :
    matmul D prec l r (constant (F := Ideal) ⟨2, ![M, N]⟩ .f32 0x00000000#32) (ix2 p q)
      = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulRowsByCols
-- ==== Proof.LibDotRowsByCols.lean ====
/-
  A host matrix product read at an entry.

  On the extended reals jnp's `dot_general` of an `[M, K]` left operand and a `[K, N]` right operand (the contraction on
  the left's second axis and the right's first, no batch axis) is at entry `(p, q)` the plain sum `∑ₖ l(p, k) · r(k, q)`:
  no rounding, no order of accumulation. The dimension record is kept abstract; what is asked of it is that it contracts
  one axis of extent `K` and reads its operands at `(p, k)` and `(k, q)`, four facts a concrete record gives by
  unfolding. (The host-side companion of the same statement for a `tpu.matmul` into a zero accumulator.) Imports only the
  library.
-/
import Idealize.ShloMosaic.PureOps.Ideal.Laws
import Idealize.ShloMosaic.Lib.ValueIdx

namespace Idealize.ShloMosaic.DotRowsByCols

open Idealize.ShloMosaic Idealize.ShloMosaic.ValueIdx

/-- `Host.dotGeneral D prec l r` at `(p, q)` is `∑ k, l (p, k) * r (k, q)`. -/
theorem dotGeneral_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂)
    (p : Fin M) (q : Fin N) :
    Host.dotGeneral D prec l r (ix2 p q) = ∑ k : Fin K, l (ix2 p k) * r (ix2 k q) := by
  refine (Ideal.dotGeneral_apply D prec .single l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.DotRowsByCols
-- ==== Proof.LibMatrixProduct.lean ====
/-
  The product of two matrices of extended reals, as an array.

  For an `[M, K]` array `x` and a `[K, N]` array `w` of extended reals the product `x · w` is the `[M, N]` array whose
  entry `(p, q)` is `∑ₖ x(p, k) · w(k, q)`. On the extended reals, where no operation rounds and a sum has no order, two
  operations compute exactly this array: jnp's `dot_general` of the two operands (contraction on the left's second axis and
  the right's first, no batch axis), and a `tpu.matmul` with the same dimension numbers accumulated into the zero splat.
  The dimension record is kept abstract; what is asked of it is that it contracts one axis of extent `K` and reads its
  operands at `(p, k)` and `(k, q)`, facts a concrete record gives by unfolding.

  A row of the product reads only the same row of the left factor (`prod_row`): this is why a product computed block of
  rows by block of rows is the whole product.  Any extents.
-/
import Idealize.ShloMosaic.PureOps.Ideal.Laws
import Idealize.ShloMosaic.Lib.ValueIdx
import proofs.«180140_j70136815943749_1_alg».proof.Proof.LibMatmulRowsByCols
import proofs.«180140_j70136815943749_1_alg».proof.Proof.LibDotRowsByCols

namespace Idealize.ShloMosaic.MatrixProduct

open Idealize.ShloMosaic Idealize.ShloMosaic.ValueIdx

variable {M K N : ℕ} {φ₁ φ₂ : FTy}

/-- The product array: entry `i = (p, q)` is `∑ₖ x(p, k) · w(k, q)`. -/
noncomputable def prod (x : FVec Ideal ⟨2, ![M, K]⟩ φ₁) (w : FVec Ideal ⟨2, ![K, N]⟩ φ₂) : FVec Ideal ⟨2, ![M, N]⟩ .f32 :=
  fun i => ∑ k : Fin K, x (ix2 (i 0) k) * w (ix2 k (i 1))

/-- The product read at coordinates. -/
theorem prod_apply (x : FVec Ideal ⟨2, ![M, K]⟩ φ₁) (w : FVec Ideal ⟨2, ![K, N]⟩ φ₂) (p : Fin M) (q : Fin N) :
    prod x w (ix2 p q) = ∑ k : Fin K, x (ix2 p k) * w (ix2 k q) := rfl

/-- Row `p'` of `x' · w` is row `p` of `x · w` as soon as row `p'` of `x'` is row `p` of `x`: a row of the product reads
    one row of the left factor and all of the right one. -/
theorem prod_row {M' : ℕ} (x : FVec Ideal ⟨2, ![M, K]⟩ φ₁) (x' : FVec Ideal ⟨2, ![M', K]⟩ φ₁)
    (w : FVec Ideal ⟨2, ![K, N]⟩ φ₂) (p : Fin M) (p' : Fin M') (q : Fin N)
    (h : ∀ k : Fin K, x' (ix2 p' k) = x (ix2 p k)) : prod x' w (ix2 p' q) = prod x w (ix2 p q) := by
  rw [prod_apply, prod_apply]
  exact Finset.sum_congr rfl fun k _ => by rw [h k]

/-- jnp's `dot_general` of an `[M, K]` and a `[K, N]` operand is their product. -/
theorem dotGeneral_eq (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂) :
    Host.dotGeneral D prec l r = prod l r := by
  funext i
  obtain ⟨p, q, rfl⟩ : ∃ (p : Fin M) (q : Fin N), i = ix2 p q := ⟨i 0, i 1, eq_ix2 i⟩
  exact DotRowsByCols.dotGeneral_apply D hr hs hl0 hl1 hr0 hr1 prec l r p q

/-- A `tpu.matmul` of an `[M, K]` and a `[K, N]` operand into the zero accumulator is their product. -/
theorem matmul_zero_eq (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂) :
    matmul D prec l r (constant (F := Ideal) ⟨2, ![M, N]⟩ .f32 0x00000000#32) = prod l r := by
  funext i
  obtain ⟨p, q, rfl⟩ : ∃ (p : Fin M) (q : Fin N), i = ix2 p q := ⟨i 0, i 1, eq_ix2 i⟩
  exact MatmulRowsByCols.matmul_zero_apply D hr hs hl0 hl1 hr0 hr1 prec l r p q

end Idealize.ShloMosaic.MatrixProduct
-- ==== Proof.LinearBlocks.lean ====
/-
  The four linear regions, each as one matrix product.

  A linear region multiplies a [100000, 128] array X by a [128, 128] weight W, twenty blocks of 5000 rows at a time. At
  grid point t it reads rows 5000·t … 5000·t + 4999 of X and the whole of W, multiplies them into a zero accumulator
  (narrowing the operands to bf16 first, which is the identity on the extended reals; two of the regions also cast the
  block to its own shape, the identity again), and writes the [5000, 128] result to the same rows of the output array.

  Row p of a block product reads row p of the block and all of W. Row p of the block is row 5000·t + p of X, so row p of
  the block product is row 5000·t + p of X · W: what point t writes back is block t of X · W. Row r of the output lies
  in block r / 5000, so the twenty blocks cover the array, and the output array ends holding X · W.
-/
import proofs.«180140_j70136815943749_1_alg».proof.Proof.Gen.KernelIdeal.Frame
import proofs.«180140_j70136815943749_1_alg».proof.Proof.LibMatrixProduct
import Idealize.ShloMosaic.Lib.Pipeline.Value
import Idealize.ShloMosaic.Lib.ValueIdx
import Idealize.ShloMosaic.PureOps.Ideal.Laws

noncomputable section

namespace Cert.KernelIdeal.LinearBlocks

open Cert.KernelIdeal Cert.KernelIdeal.Gen Idealize.ShloMosaic Idealize.ShloMosaic.TcCoe Idealize.SL.Sem
open Idealize.ShloMosaic.ValueIdx
open Idealize.ShloMosaic.Pipeline (Dat)

/-! ## The block product's dimension record

It contracts one axis of extent 128, the left operand's second against the right operand's first, and has no batch
axis: at output entry `j` and contraction position `q` it reads the left operand at `(j 0, q)` and the right at `(q, j 1)`. -/

theorem dims_rank : dot_S5000x128_S128x128_S5000x128_1_0_0_1_n_n.contr.rank = 1 := rfl

theorem dims_extent : dot_S5000x128_S128x128_S5000x128_1_0_0_1_n_n.contr.size ⟨0, by decide⟩ = 128 := rfl

theorem dims_left_row (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

theorem dims_left_col (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q

theorem dims_right_row (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q

theorem dims_right_col (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-! ## The body's value is the block product -/

/-- The product of the two narrowed operands into the zero accumulator is the product of the operands: narrowing is
    the identity on the extended reals. -/
theorem narrowed_product (x0 : Vec Ideal S5000x128 .f32) (x1 : Vec Ideal S128x128 .f32) :
    matmul dot_S5000x128_S128x128_S5000x128_1_0_0_1_n_n none (truncf .bf16 x0 bitsLt_bf16_f32) (truncf .bf16 x1 bitsLt_bf16_f32)
        (constant (F := Ideal) S5000x128 .f32 0x00000000#32)
      = MatrixProduct.prod (M := 5000) (K := 128) (N := 128) (φ₁ := .f32) (φ₂ := .f32) x0 x1 :=
  MatrixProduct.matmul_zero_eq (M := 5000) (K := 128) (N := 128) dot_S5000x128_S128x128_S5000x128_1_0_0_1_n_n
    dims_rank dims_extent dims_left_row dims_left_col dims_right_row dims_right_col none
    (truncf .bf16 x0 bitsLt_bf16_f32) (truncf .bf16 x1 bitsLt_bf16_f32)

/-! ## A block of rows of a product -/

theorem zero_offsets : (![0, 0] : Fin 2 → Nat) = fun _ => 0 := funext fun a => by fin_cases a <;> rfl

/-- If `x0` is rows `s … s + 4999` of `X` (entry `y` of `x0` is entry `i` of `X` whenever `i` is `y` moved down `s` rows) and
    `x1` is `W`, then entry `y` of `x0 · x1` is the entry of `X · W` that is `y` moved down `s` rows: a row of a product reads
    one row of the left factor. -/
theorem rows_product_at (X : FVec Ideal (⟨2, ![100000, 128]⟩ : Shape) .f32) (W : FVec Ideal (⟨2, ![128, 128]⟩ : Shape) .f32)
    (x0 : FVec Ideal (⟨2, ![5000, 128]⟩ : Shape) .f32) (x1 : FVec Ideal (⟨2, ![128, 128]⟩ : Shape) .f32) (s : Nat)
    (h0 : ∀ (y : (⟨2, ![5000, 128]⟩ : Shape).Idx) (i : (⟨2, ![100000, 128]⟩ : Shape).Idx),
      (i 0).val = s + (y 0).val → (i 1).val = (y 1).val → x0 y = X i)
    (h1 : x1 = W) (y : (⟨2, ![5000, 128]⟩ : Shape).Idx) (i : (⟨2, ![100000, 128]⟩ : Shape).Idx)
    (hi0 : (i 0).val = s + (y 0).val) (hi1 : (i 1).val = (y 1).val) :
    MatrixProduct.prod (M := 5000) (K := 128) (N := 128) (φ₁ := .f32) (φ₂ := .f32) x0 x1 y
      = MatrixProduct.prod (M := 100000) (K := 128) (N := 128) (φ₁ := .f32) (φ₂ := .f32) X W i := by
  subst h1
  obtain ⟨p, q, rfl⟩ : ∃ (p : Fin 5000) (q : Fin 128), y = ix2 p q := ⟨y 0, y 1, eq_ix2 y⟩
  obtain ⟨r, q', rfl⟩ : ∃ (r : Fin 100000) (q' : Fin 128), i = ix2 r q' := ⟨i 0, i 1, eq_ix2 i⟩
  have hq : q' = q := Fin.ext hi1
  rw [hq]
  exact MatrixProduct.prod_row X x0 x1 r p q fun k => h0 (ix2 p k) (ix2 r k) hi0 rfl

/-! ## Region 0: `main_v4` ends as `main_arg0 · main_arg4` -/

/-- The body's value at a point is the product of the two blocks it loaded. -/
theorem payload0 (x0 : Vec Ideal S5000x128 .f32) (x1 : Vec Ideal S128x128 .f32) :
    k0_pay1 x0 x1 = MatrixProduct.prod (M := 5000) (K := 128) (N := 128) (φ₁ := .f32) (φ₂ := .f32) x0 x1 := by
  unfold k0_pay1
  exact narrowed_product x0 x1

/-- The block indices over the grid: the row blocks move with the point, the weight stays. -/
theorem block_index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every row block is some point's. -/
theorem block_onto0 : ∀ b : Fin 20, ∃ t : Fin cfg0.N, win0_2.index t = ![b.val, 0] :=
  (by decide +kernel : ∀ b : Fin 20, ∃ t : Fin grid0.N, win0_2.index t = ![b.val, 0])

/-- The weight window's block is the whole weight. -/
theorem weight_block0 (V : (c : Dev nD) → (b : Ref sig .tc) → Buf (Elt Ideal) ((c : Thread nD τ).loc b)) (c : Dev nD) (t : Fin cfg0.N) :
    (iblk0 V c 1 t : S128x128.Idx → Elt Ideal .f32) = V c main_arg4 := by
  obtain ⟨-, -, e2, e3, -, -⟩ := block_index0 t
  funext y
  show V c main_arg4 (((cfg0.win 1).blk t).view.emb y) = V c main_arg4 y
  refine congrArg (V c main_arg4) (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The input window's block at point `t` is rows `5000·t … 5000·t + 4999` of its array. -/
theorem input_block0 (V : (c : Dev nD) → (b : Ref sig .tc) → Buf (Elt Ideal) ((c : Thread nD τ).loc b)) (c : Dev nD) (t : Fin cfg0.N) (y : S5000x128.Idx) (i : S100000x128.Idx)
    (hi0 : (i 0).val = 5000 * t.val + (y 0).val) (hi1 : (i 1).val = (y 1).val) :
    (iblk0 V c 0 t : S5000x128.Idx → Elt Ideal .f32) y = (V c main_arg0 : S100000x128.Idx → Elt Ideal .f32) i := by
  obtain ⟨e0, e1, -, -, -, -⟩ := block_index0 t
  show V c main_arg0 (((cfg0.win 0).blk t).view.emb y) = V c main_arg0 i
  refine congrArg (V c main_arg0) (funext fun a => Fin.ext ?_)
  match a with
  | ⟨0, _⟩ => show win0_0.index t (0 : Fin 2) * 5000 + 1 * (y 0).val = (i 0).val; omega
  | ⟨1, _⟩ => show win0_0.index t (1 : Fin 2) * 128 + 1 * (y 1).val = (i 1).val; omega

/-- What point `t` writes back is block `t` of the whole product. -/
theorem flushed0_eq (V : (c : Dev nD) → (b : Ref sig .tc) → Buf (Elt Ideal) ((c : Thread nD τ).loc b)) (c : Dev nD) (t : Fin cfg0.N) :
    (dat0 (F := Ideal) V c).flushed 2 t = ((cfg0.win 2).blk t).view.read (Elt Ideal)
      (MatrixProduct.prod (M := 100000) (K := 128) (N := 128) (φ₁ := .f32) (φ₂ := .f32) (V c main_arg0) (V c main_arg4)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  rw [payload0]
  obtain ⟨-, -, -, -, e4, e5⟩ := block_index0 t
  funext j
  refine rows_product_at (V c main_arg0) (V c main_arg4) (iblk0 V c 0 t) (iblk0 V c 1 t) (5000 * t.val)
    (fun y i h0 h1 => input_block0 V c t y i h0 h1) (weight_block0 V c t) j (((cfg0.win 2).blk t).view.emb j) ?_ ?_
  · show win0_2.index t (0 : Fin 2) * 5000 + 1 * (j 0).val = 5000 * t.val + (j 0).val; omega
  · show win0_2.index t (1 : Fin 2) * 128 + 1 * (j 1).val = (j 1).val; omega

/-- An index of the output array is in point `t`'s block iff each coordinate is in the block's range on its axis. -/
theorem mem_block0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v4).slice (win0_2.rect t)).set ↔ _
  rw [View.set_slice_whole, Rect.mem_set_unit]
  exact Iff.rfl

/-- The twenty row blocks cover the output array: row `r` is in block `r / 5000`. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := block_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- Region 0 leaves in its output array the product of its input array and its weight. -/
theorem region0 (V : (c : Dev nD) → (b : Ref sig .tc) → Buf (Elt Ideal) ((c : Thread nD τ).loc b)) (c : Dev nD) :
    (Gen.dat0 (F := Ideal) V c).arrAt 2 cfg0.N
      = Idealize.ShloMosaic.MatrixProduct.prod (M := 100000) (K := 128) (N := 128) (φ₁ := .f32) (φ₂ := .f32) (V c main_arg0) (V c main_arg4) :=
  (Gen.dat0 (F := Ideal) V c).arrAt_eq_of_cover 2 _ (fun t _ => flushed0_eq V c t) cover0

/-! ## Region 2: `main_v48` ends as `main_v43 · main_arg6` -/

/-- The body's value at a point is the product of the two blocks it loaded (the cast of the row block to its own shape is the identity). -/
theorem payload2 (x0 : Vec Ideal S5000x128 .f32) (x1 : Vec Ideal S128x128 .f32) :
    k2_pay1 x0 x1 = MatrixProduct.prod (M := 5000) (K := 128) (N := 128) (φ₁ := .f32) (φ₂ := .f32) x0 x1 := by
  unfold k2_pay1
  rw [shapeCast_self]
  exact narrowed_product x0 x1

/-- The block indices over the grid: the row blocks move with the point, the weight stays. -/
theorem block_index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every row block is some point's. -/
theorem block_onto2 : ∀ b : Fin 20, ∃ t : Fin cfg2.N, win2_2.index t = ![b.val, 0] :=
  (by decide +kernel : ∀ b : Fin 20, ∃ t : Fin grid2.N, win2_2.index t = ![b.val, 0])

/-- The weight window's block is the whole weight. -/
theorem weight_block2 (V : (c : Dev nD) → (b : Ref sig .tc) → Buf (Elt Ideal) ((c : Thread nD τ).loc b)) (c : Dev nD) (t : Fin cfg2.N) :
    (iblk2 V c 1 t : S128x128.Idx → Elt Ideal .f32) = V c main_arg6 := by
  obtain ⟨-, -, e2, e3, -, -⟩ := block_index2 t
  funext y
  show V c main_arg6 (((cfg2.win 1).blk t).view.emb y) = V c main_arg6 y
  refine congrArg (V c main_arg6) (funext fun a => Fin.ext ?_)
  match a with
  | ⟨0, _⟩ => show win2_1.index t (0 : Fin 2) * 128 + 1 * (y 0).val = (y 0).val; omega
  | ⟨1, _⟩ => show win2_1.index t (1 : Fin 2) * 128 + 1 * (y 1).val = (y 1).val; omega

/-- The input window's block at point `t` is rows `5000·t … 5000·t + 4999` of its array. -/
theorem input_block2 (V : (c : Dev nD) → (b : Ref sig .tc) → Buf (Elt Ideal) ((c : Thread nD τ).loc b)) (c : Dev nD) (t : Fin cfg2.N) (y : S5000x128.Idx) (i : S100000x128.Idx)
    (hi0 : (i 0).val = 5000 * t.val + (y 0).val) (hi1 : (i 1).val = (y 1).val) :
    (iblk2 V c 0 t : S5000x128.Idx → Elt Ideal .f32) y = (V c main_v43 : S100000x128.Idx → Elt Ideal .f32) i := by
  obtain ⟨e0, e1, -, -, -, -⟩ := block_index2 t
  show V c main_v43 (((cfg2.win 0).blk t).view.emb y) = V c main_v43 i
  refine congrArg (V c main_v43) (funext fun a => Fin.ext ?_)
  match a with
  | ⟨0, _⟩ => show win2_0.index t (0 : Fin 2) * 5000 + 1 * (y 0).val = (i 0).val; omega
  | ⟨1, _⟩ => show win2_0.index t (1 : Fin 2) * 128 + 1 * (y 1).val = (i 1).val; omega

/-- What point `t` writes back is block `t` of the whole product. -/
theorem flushed2_eq (V : (c : Dev nD) → (b : Ref sig .tc) → Buf (Elt Ideal) ((c : Thread nD τ).loc b)) (c : Dev nD) (t : Fin cfg2.N) :
    (dat2 (F := Ideal) V c).flushed 2 t = ((cfg2.win 2).blk t).view.read (Elt Ideal)
      (MatrixProduct.prod (M := 100000) (K := 128) (N := 128) (φ₁ := .f32) (φ₂ := .f32) (V c main_v43) (V c main_arg6)) := by
  show (cfg2.win 2).cut (grid2.coords t) ((dat2 V c).after 2 t) = _
  rw [after2_2]
  unfold out2_2
  rw [View.canon_unit_zero zero_offsets]
  simp only [View.ld_unit_zero (S := S5000x128) zero_offsets, View.ld_unit_zero (S := S128x128) zero_offsets]
  rw [payload2]
  obtain ⟨-, -, -, -, e4, e5⟩ := block_index2 t
  funext j
  refine rows_product_at (V c main_v43) (V c main_arg6) (iblk2 V c 0 t) (iblk2 V c 1 t) (5000 * t.val)
    (fun y i h0 h1 => input_block2 V c t y i h0 h1) (weight_block2 V c t) j (((cfg2.win 2).blk t).view.emb j) ?_ ?_
  · show win2_2.index t (0 : Fin 2) * 5000 + 1 * (j 0).val = 5000 * t.val + (j 0).val; omega
  · show win2_2.index t (1 : Fin 2) * 128 + 1 * (j 1).val = (j 1).val; omega

/-- An index of the output array is in point `t`'s block iff each coordinate is in the block's range on its axis. -/
theorem mem_block2 (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v48).slice (win2_2.rect t)).set ↔ _
  rw [View.set_slice_whole, Rect.mem_set_unit]
  exact Iff.rfl

/-- The twenty row blocks cover the output array: row `r` is in block `r / 5000`. -/
theorem cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := block_onto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_block2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- Region 2 leaves in its output array the product of its input array and its weight. -/
theorem region2 (V : (c : Dev nD) → (b : Ref sig .tc) → Buf (Elt Ideal) ((c : Thread nD τ).loc b)) (c : Dev nD) :
    (Gen.dat2 (F := Ideal) V c).arrAt 2 cfg2.N
      = Idealize.ShloMosaic.MatrixProduct.prod (M := 100000) (K := 128) (N := 128) (φ₁ := .f32) (φ₂ := .f32) (V c main_v43) (V c main_arg6) :=
  (Gen.dat2 (F := Ideal) V c).arrAt_eq_of_cover 2 _ (fun t _ => flushed2_eq V c t) cover2

/-! ## Region 4: `main_v92` ends as `main_arg2 · main_arg4` -/

/-- The body's value at a point is the product of the two blocks it loaded. -/
theorem payload4 (x0 : Vec Ideal S5000x128 .f32) (x1 : Vec Ideal S128x128 .f32) :
    k4_pay1 x0 x1 = MatrixProduct.prod (M := 5000) (K := 128) (N := 128) (φ₁ := .f32) (φ₂ := .f32) x0 x1 := by
  unfold k4_pay1
  exact narrowed_product x0 x1

/-- The block indices over the grid: the row blocks move with the point, the weight stays. -/
theorem block_index4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Every row block is some point's. -/
theorem block_onto4 : ∀ b : Fin 20, ∃ t : Fin cfg4.N, win4_2.index t = ![b.val, 0] :=
  (by decide +kernel : ∀ b : Fin 20, ∃ t : Fin grid4.N, win4_2.index t = ![b.val, 0])

/-- The weight window's block is the whole weight. -/
theorem weight_block4 (V : (c : Dev nD) → (b : Ref sig .tc) → Buf (Elt Ideal) ((c : Thread nD τ).loc b)) (c : Dev nD) (t : Fin cfg4.N) :
    (iblk4 V c 1 t : S128x128.Idx → Elt Ideal .f32) = V c main_arg4 := by
  obtain ⟨-, -, e2, e3, -, -⟩ := block_index4 t
  funext y
  show V c main_arg4 (((cfg4.win 1).blk t).view.emb y) = V c main_arg4 y
  refine congrArg (V c main_arg4) (funext fun a => Fin.ext ?_)
  match a with
  | ⟨0, _⟩ => show win4_1.index t (0 : Fin 2) * 128 + 1 * (y 0).val = (y 0).val; omega
  | ⟨1, _⟩ => show win4_1.index t (1 : Fin 2) * 128 + 1 * (y 1).val = (y 1).val; omega

/-- The input window's block at point `t` is rows `5000·t … 5000·t + 4999` of its array. -/
theorem input_block4 (V : (c : Dev nD) → (b : Ref sig .tc) → Buf (Elt Ideal) ((c : Thread nD τ).loc b)) (c : Dev nD) (t : Fin cfg4.N) (y : S5000x128.Idx) (i : S100000x128.Idx)
    (hi0 : (i 0).val = 5000 * t.val + (y 0).val) (hi1 : (i 1).val = (y 1).val) :
    (iblk4 V c 0 t : S5000x128.Idx → Elt Ideal .f32) y = (V c main_arg2 : S100000x128.Idx → Elt Ideal .f32) i := by
  obtain ⟨e0, e1, -, -, -, -⟩ := block_index4 t
  show V c main_arg2 (((cfg4.win 0).blk t).view.emb y) = V c main_arg2 i
  refine congrArg (V c main_arg2) (funext fun a => Fin.ext ?_)
  match a with
  | ⟨0, _⟩ => show win4_0.index t (0 : Fin 2) * 5000 + 1 * (y 0).val = (i 0).val; omega
  | ⟨1, _⟩ => show win4_0.index t (1 : Fin 2) * 128 + 1 * (y 1).val = (i 1).val; omega

/-- What point `t` writes back is block `t` of the whole product. -/
theorem flushed4_eq (V : (c : Dev nD) → (b : Ref sig .tc) → Buf (Elt Ideal) ((c : Thread nD τ).loc b)) (c : Dev nD) (t : Fin cfg4.N) :
    (dat4 (F := Ideal) V c).flushed 2 t = ((cfg4.win 2).blk t).view.read (Elt Ideal)
      (MatrixProduct.prod (M := 100000) (K := 128) (N := 128) (φ₁ := .f32) (φ₂ := .f32) (V c main_arg2) (V c main_arg4)) := by
  show (cfg4.win 2).cut (grid4.coords t) ((dat4 V c).after 2 t) = _
  rw [after4_2]
  unfold out4_2
  rw [View.canon_unit_zero zero_offsets]
  simp only [View.ld_unit_zero (S := S5000x128) zero_offsets, View.ld_unit_zero (S := S128x128) zero_offsets]
  rw [payload4]
  obtain ⟨-, -, -, -, e4, e5⟩ := block_index4 t
  funext j
  refine rows_product_at (V c main_arg2) (V c main_arg4) (iblk4 V c 0 t) (iblk4 V c 1 t) (5000 * t.val)
    (fun y i h0 h1 => input_block4 V c t y i h0 h1) (weight_block4 V c t) j (((cfg4.win 2).blk t).view.emb j) ?_ ?_
  · show win4_2.index t (0 : Fin 2) * 5000 + 1 * (j 0).val = 5000 * t.val + (j 0).val; omega
  · show win4_2.index t (1 : Fin 2) * 128 + 1 * (j 1).val = (j 1).val; omega

/-- An index of the output array is in point `t`'s block iff each coordinate is in the block's range on its axis. -/
theorem mem_block4 (t : Fin cfg4.N) (i : S100000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v92).slice (win4_2.rect t)).set ↔ _
  rw [View.set_slice_whole, Rect.mem_set_unit]
  exact Iff.rfl

/-- The twenty row blocks cover the output array: row `r` is in block `r / 5000`. -/
theorem cover4 (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  obtain ⟨t, ht⟩ := block_onto4 ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_block4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- Region 4 leaves in its output array the product of its input array and its weight. -/
theorem region4 (V : (c : Dev nD) → (b : Ref sig .tc) → Buf (Elt Ideal) ((c : Thread nD τ).loc b)) (c : Dev nD) :
    (Gen.dat4 (F := Ideal) V c).arrAt 2 cfg4.N
      = Idealize.ShloMosaic.MatrixProduct.prod (M := 100000) (K := 128) (N := 128) (φ₁ := .f32) (φ₂ := .f32) (V c main_arg2) (V c main_arg4) :=
  (Gen.dat4 (F := Ideal) V c).arrAt_eq_of_cover 2 _ (fun t _ => flushed4_eq V c t) cover4

/-! ## Region 6: `main_v136` ends as `main_v131 · main_arg6` -/

/-- The body's value at a point is the product of the two blocks it loaded (the cast of the row block to its own shape is the identity). -/
theorem payload6 (x0 : Vec Ideal S5000x128 .f32) (x1 : Vec Ideal S128x128 .f32) :
    k6_pay1 x0 x1 = MatrixProduct.prod (M := 5000) (K := 128) (N := 128) (φ₁ := .f32) (φ₂ := .f32) x0 x1 := by
  unfold k6_pay1
  rw [shapeCast_self]
  exact narrowed_product x0 x1

/-- The block indices over the grid: the row blocks move with the point, the weight stays. -/
theorem block_index6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- Every row block is some point's. -/
theorem block_onto6 : ∀ b : Fin 20, ∃ t : Fin cfg6.N, win6_2.index t = ![b.val, 0] :=
  (by decide +kernel : ∀ b : Fin 20, ∃ t : Fin grid6.N, win6_2.index t = ![b.val, 0])

/-- The weight window's block is the whole weight. -/
theorem weight_block6 (V : (c : Dev nD) → (b : Ref sig .tc) → Buf (Elt Ideal) ((c : Thread nD τ).loc b)) (c : Dev nD) (t : Fin cfg6.N) :
    (iblk6 V c 1 t : S128x128.Idx → Elt Ideal .f32) = V c main_arg6 := by
  obtain ⟨-, -, e2, e3, -, -⟩ := block_index6 t
  funext y
  show V c main_arg6 (((cfg6.win 1).blk t).view.emb y) = V c main_arg6 y
  refine congrArg (V c main_arg6) (funext fun a => Fin.ext ?_)
  match a with
  | ⟨0, _⟩ => show win6_1.index t (0 : Fin 2) * 128 + 1 * (y 0).val = (y 0).val; omega
  | ⟨1, _⟩ => show win6_1.index t (1 : Fin 2) * 128 + 1 * (y 1).val = (y 1).val; omega

/-- The input window's block at point `t` is rows `5000·t … 5000·t + 4999` of its array. -/
theorem input_block6 (V : (c : Dev nD) → (b : Ref sig .tc) → Buf (Elt Ideal) ((c : Thread nD τ).loc b)) (c : Dev nD) (t : Fin cfg6.N) (y : S5000x128.Idx) (i : S100000x128.Idx)
    (hi0 : (i 0).val = 5000 * t.val + (y 0).val) (hi1 : (i 1).val = (y 1).val) :
    (iblk6 V c 0 t : S5000x128.Idx → Elt Ideal .f32) y = (V c main_v131 : S100000x128.Idx → Elt Ideal .f32) i := by
  obtain ⟨e0, e1, -, -, -, -⟩ := block_index6 t
  show V c main_v131 (((cfg6.win 0).blk t).view.emb y) = V c main_v131 i
  refine congrArg (V c main_v131) (funext fun a => Fin.ext ?_)
  match a with
  | ⟨0, _⟩ => show win6_0.index t (0 : Fin 2) * 5000 + 1 * (y 0).val = (i 0).val; omega
  | ⟨1, _⟩ => show win6_0.index t (1 : Fin 2) * 128 + 1 * (y 1).val = (i 1).val; omega

/-- What point `t` writes back is block `t` of the whole product. -/
theorem flushed6_eq (V : (c : Dev nD) → (b : Ref sig .tc) → Buf (Elt Ideal) ((c : Thread nD τ).loc b)) (c : Dev nD) (t : Fin cfg6.N) :
    (dat6 (F := Ideal) V c).flushed 2 t = ((cfg6.win 2).blk t).view.read (Elt Ideal)
      (MatrixProduct.prod (M := 100000) (K := 128) (N := 128) (φ₁ := .f32) (φ₂ := .f32) (V c main_v131) (V c main_arg6)) := by
  show (cfg6.win 2).cut (grid6.coords t) ((dat6 V c).after 2 t) = _
  rw [after6_2]
  unfold out6_2
  rw [View.canon_unit_zero zero_offsets]
  simp only [View.ld_unit_zero (S := S5000x128) zero_offsets, View.ld_unit_zero (S := S128x128) zero_offsets]
  rw [payload6]
  obtain ⟨-, -, -, -, e4, e5⟩ := block_index6 t
  funext j
  refine rows_product_at (V c main_v131) (V c main_arg6) (iblk6 V c 0 t) (iblk6 V c 1 t) (5000 * t.val)
    (fun y i h0 h1 => input_block6 V c t y i h0 h1) (weight_block6 V c t) j (((cfg6.win 2).blk t).view.emb j) ?_ ?_
  · show win6_2.index t (0 : Fin 2) * 5000 + 1 * (j 0).val = 5000 * t.val + (j 0).val; omega
  · show win6_2.index t (1 : Fin 2) * 128 + 1 * (j 1).val = (j 1).val; omega

/-- An index of the output array is in point `t`'s block iff each coordinate is in the block's range on its axis. -/
theorem mem_block6 (t : Fin cfg6.N) (i : S100000x128.Idx) :
    i ∈ ((cfg6.win 2).blk t).view.set ↔ ∀ a : Fin 2, win6_2.index t a * S5000x128.size a ≤ (i a).val ∧ (i a).val < win6_2.index t a * S5000x128.size a + S5000x128.size a := by
  show i ∈ ((View.whole main_v136).slice (win6_2.rect t)).set ↔ _
  rw [View.set_slice_whole, Rect.mem_set_unit]
  exact Iff.rfl

/-- The twenty row blocks cover the output array: row `r` is in block `r / 5000`. -/
theorem cover6 (i : S100000x128.Idx) :
    ∃ t : Fin cfg6.N, (cfg6.win 2).flush t = true ∧ i ∈ ((cfg6.win 2).blk t).view.set := by
  have hi0 : (i 0).val < 100000 := (i 0).isLt
  have hi1 : (i 1).val < 128 := (i 1).isLt
  obtain ⟨t, ht⟩ := block_onto6 ⟨(i 0).val / 5000, by omega⟩
  have q0 : win6_2.index t (0 : Fin 2) = (i 0).val / 5000 := congrFun ht 0
  have q1 : win6_2.index t (1 : Fin 2) = 0 := congrFun ht 1
  refine ⟨t, flush6_2 t, ?_⟩
  rw [mem_block6]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 128 ≤ (i 1).val ∧ (i 1).val < win6_2.index t (1 : Fin 2) * 128 + 128; omega

/-- Region 6 leaves in its output array the product of its input array and its weight. -/
theorem region6 (V : (c : Dev nD) → (b : Ref sig .tc) → Buf (Elt Ideal) ((c : Thread nD τ).loc b)) (c : Dev nD) :
    (Gen.dat6 (F := Ideal) V c).arrAt 2 cfg6.N
      = Idealize.ShloMosaic.MatrixProduct.prod (M := 100000) (K := 128) (N := 128) (φ₁ := .f32) (φ₂ := .f32) (V c main_v131) (V c main_arg6) :=
  (Gen.dat6 (F := Ideal) V c).arrAt_eq_of_cover 2 _ (fun t _ => flushed6_eq V c t) cover6

end Cert.KernelIdeal.LinearBlocks

end
-- ==== Proof.Spec.lean ====
/-
  One graph-convolution layer's last step, entry by entry.

  A layer's output at node `p`, feature `q` is the aggregated neighbour messages `agg(p, q)` plus the node's own transformed
  feature `h(p, q)` scaled by the node's weight `d(p)` (the squared inverse root degree, held as a one-column array), plus
  the feature's bias `b(q)` (held as a one-row array): `(agg + h · d) + b`, in this grouping. The first layer then takes the
  maximum with zero. Stated over any float values, so the same text reads at the extended reals.
-/
import Idealize.ShloMosaic.PureOps
import Idealize.ShloMosaic.Lib.ValueIdx

noncomputable section

namespace Cert.GcnSpec

open Idealize.ShloMosaic Idealize.ShloMosaic.ValueIdx

variable {F : FTy → Type} [FloatOps F]

/-- `(agg + h · d) + b` at entry `i = (p, q)`: the weight read at `(p, 0)`, the bias at `(0, q)`. -/
def combine (agg h : (⟨2, ![100000, 128]⟩ : Shape).Idx → Elt F .f32) (d : (⟨2, ![100000, 1]⟩ : Shape).Idx → Elt F .f32)
    (b : (⟨2, ![1, 128]⟩ : Shape).Idx → Elt F .f32) : (⟨2, ![100000, 128]⟩ : Shape).Idx → Elt F .f32 :=
  fun i => FloatOps.addf (FloatOps.addf (agg i) (FloatOps.mulf (h i) (d (ix2 (i 0) (0 : Fin 1))))) (b (ix2 (0 : Fin 1) (i 1)))

/-- The same followed by the maximum with the float word of zero. -/
def combineRelu (agg h : (⟨2, ![100000, 128]⟩ : Shape).Idx → Elt F .f32) (d : (⟨2, ![100000, 1]⟩ : Shape).Idx → Elt F .f32)
    (b : (⟨2, ![1, 128]⟩ : Shape).Idx → Elt F .f32) : (⟨2, ![100000, 128]⟩ : Shape).Idx → Elt F .f32 :=
  fun i => FloatOps.maximumf (combine agg h d b i) (FloatOps.ofBits .f32 0x00000000#32)

end Cert.GcnSpec

end
-- ==== Proof.LibColumnBroadcast.lean ====
/-
  Columns, read at an entry.

  An [a, 1] array broadcast to [a, b] reads, at (p, c), the column's entry at (p, 0): every entry of row p of the
  result is the one number the column holds for that row (the companion of the library's one-row form [1, b] → [a, b]).
  A vector [a] cast to a column [a, 1] reads, at (i, 0), the vector's entry at i (the companion of the library's row
  form [a] → [1, a]). Any extents and element type; imports only the library.
-/
import Idealize.ShloMosaic.Lib.Pipeline.Value
import Idealize.ShloMosaic.Lib.ValueIdx

namespace Idealize.ShloMosaic.ColumnBroadcast

open Idealize.ShloMosaic Idealize.ShloMosaic.ValueIdx

/-- An `[a, 1]` array broadcast to `[a, b]` reads, at `(p, c)`, the operand at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Idealize.ShloMosaic.ColumnBroadcast
-- ==== Proof.CombineBlocks.lean ====
/-
  The four combine regions, from blocks to whole arrays.

  Each of these regions walks a one-axis grid of 20 points. Point t reads rows 5000·t … 5000·t + 4999 (all 128 columns)
  of the aggregated messages agg and of the transformed features h, the same rows of the one-column weight array d, and
  the whole one-row bias b; its body forms (agg + h · d) + b entry by entry (two of the four regions then take the maximum
  with the zero word) and writes the result back to the same rows of the output array. The twenty row blocks tile the
  output array, so after the last point the array holds that expression of the whole input arrays at every entry.

  Per region: the body's result at one entry of a block; each input block read as rows of its array; what a point writes
  back as the block of the whole-array expression; the blocks cover the array; the array after the run.
-/
import proofs.«180140_j70136815943749_1_alg».proof.Proof.Gen.KernelIdeal.Frame
import proofs.«180140_j70136815943749_1_alg».proof.Proof.Spec
import proofs.«180140_j70136815943749_1_alg».proof.Proof.LibColumnBroadcast
import proofs.«180140_j70136815943749_1_alg».proof.Proof.LibOneRowMatrix
import Idealize.ShloMosaic.Lib.Pipeline.Value
import Idealize.ShloMosaic.Lib.ValueIdx
import Idealize.ShloMosaic.Lib.ValueLayout

set_option maxRecDepth 16384

noncomputable section

namespace Cert.KernelIdeal.CombineBlocks

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The offsets of a whole-buffer access, both zero. -/
theorem zero_offsets : (![0, 0] : Fin 2 → Nat) = fun _ => 0 := funext fun a => by fin_cases a <;> rfl

/-! ## Region 1: max((agg + h · d) + b, 0) -/

/-- The body's result at row p, column q of a block: the casts between equal shapes are identities, the one-column
    weight block broadcast along the columns reads its row's entry (p, 0), the one-row bias broadcast down the rows
    reads its column's entry (0, q), and the arithmetic is entry by entry. -/
theorem body1_apply (x0 x1 : Vec Ideal S5000x128 .f32) (x2 : Vec Ideal S5000x1 .f32) (x3 : Vec Ideal S1x128 .f32)
    (p : Fin 5000) (q : Fin 128) :
    k1_pay1 x0 x1 x2 x3 (ix2 p q)
      = FloatOps.maximumf (FloatOps.addf (FloatOps.addf (x0 (ix2 p q)) (FloatOps.mulf (x1 (ix2 p q)) (x2 (ix2 p (0 : Fin 1))))) (x3 (ix2 (0 : Fin 1) q))) (FloatOps.ofBits .f32 0x00000000#32) := by
  have hcol : broadcastTo S5000x128 x2 broadcasts_S5000x1_S5000x128 (ix2 p q) = x2 (ix2 p (0 : Fin 1)) :=
    ColumnBroadcast.broadcastTo_a1_ab_apply (a := 5000) (b := 128) x2 broadcasts_S5000x1_S5000x128 p q
  have hrow : broadcastTo S5000x128 x3 broadcasts_S1x128_S5000x128 (ix2 p q) = x3 (ix2 (0 : Fin 1) q) :=
    OneRowMatrix.broadcast_row_apply (m := 5000) (n := 128) x3 broadcasts_S1x128_S5000x128 p q
  unfold k1_pay1
  simp only [shapeCast_self]
  rw [maximumf_apply, addf_apply, addf_apply, mulf_apply, hcol, hrow, broadcast_apply]
  rfl

/-- The grid's index maps, decided over the 20 points: the three row-blocked inputs and the output sit at block
    (t, 0), the bias at block (0, 0). -/
theorem block_indices1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Every row block of the output is some point's. -/
theorem point_of_block1 : ∀ k : Fin 20, ∃ t : Fin cfg1.N, win1_4.index t = ![k.val, 0] :=
  (by decide +kernel : ∀ k : Fin 20, ∃ t : Fin grid1.N, win1_4.index t = ![k.val, 0])

/-- Point t's block of agg is rows 5000·t … of the array: entry y of the block is entry i of the array when
    i = (5000·t + y₀, y₁). -/
theorem agg_block1 (c : Dev nD) (t : Fin cfg1.N) (y : S5000x128.Idx) (i : S100000x128.Idx)
    (h0 : (i 0).val = t.val * 5000 + (y 0).val) (h1 : (i 1).val = (y 1).val) :
    (iblk1 V c 0 t : Vec Ideal S5000x128 .f32) y = (V c main_v39 : S100000x128.Idx → Elt Ideal .f32) i := by
  obtain ⟨e00, e01, -⟩ := block_indices1 t
  show V c main_v39 (((cfg1.win 0).blk t).view.emb y) = V c main_v39 i
  refine congrArg (V c main_v39) ?_
  funext a; apply Fin.ext
  match a with
  | ⟨0, _⟩ => show win1_0.index t (0 : Fin 2) * 5000 + 1 * (y 0).val = (i 0).val; omega
  | ⟨1, _⟩ => show win1_0.index t (1 : Fin 2) * 128 + 1 * (y 1).val = (i 1).val; omega

/-- The same for h. -/
theorem h_block1 (c : Dev nD) (t : Fin cfg1.N) (y : S5000x128.Idx) (i : S100000x128.Idx)
    (h0 : (i 0).val = t.val * 5000 + (y 0).val) (h1 : (i 1).val = (y 1).val) :
    (iblk1 V c 1 t : Vec Ideal S5000x128 .f32) y = (V c main_v4 : S100000x128.Idx → Elt Ideal .f32) i := by
  obtain ⟨-, -, e10, e11, -⟩ := block_indices1 t
  show V c main_v4 (((cfg1.win 1).blk t).view.emb y) = V c main_v4 i
  refine congrArg (V c main_v4) ?_
  funext a; apply Fin.ext
  match a with
  | ⟨0, _⟩ => show win1_1.index t (0 : Fin 2) * 5000 + 1 * (y 0).val = (i 0).val; omega
  | ⟨1, _⟩ => show win1_1.index t (1 : Fin 2) * 128 + 1 * (y 1).val = (i 1).val; omega

/-- Point t's block of the weights d is rows 5000·t … of the one-column array. -/
theorem d_block1 (c : Dev nD) (t : Fin cfg1.N) (y : S5000x1.Idx) (i : S100000x1.Idx)
    (h0 : (i 0).val = t.val * 5000 + (y 0).val) :
    (iblk1 V c 2 t : Vec Ideal S5000x1 .f32) y = (V c main_v41 : S100000x1.Idx → Elt Ideal .f32) i := by
  obtain ⟨-, -, -, -, e20, e21, -⟩ := block_indices1 t
  show V c main_v41 (((cfg1.win 2).blk t).view.emb y) = V c main_v41 i
  refine congrArg (V c main_v41) ?_
  funext a; apply Fin.ext
  match a with
  | ⟨0, _⟩ => show win1_2.index t (0 : Fin 2) * 5000 + 1 * (y 0).val = (i 0).val; omega
  | ⟨1, _⟩ =>
    show win1_2.index t (1 : Fin 2) * 1 + 1 * (y 1).val = (i 1).val
    have hy : (y 1).val < 1 := (y 1).isLt
    have hi : (i 1).val < 1 := (i 1).isLt
    omega

/-- Every point's block of the bias b is the whole one-row array. -/
theorem b_block1 (c : Dev nD) (t : Fin cfg1.N) (y : S1x128.Idx) :
    (iblk1 V c 3 t : Vec Ideal S1x128 .f32) y = (V c main_v42 : S1x128.Idx → Elt Ideal .f32) y := by
  obtain ⟨-, -, -, -, -, -, e30, e31, -⟩ := block_indices1 t
  show V c main_v42 (((cfg1.win 3).blk t).view.emb y) = V c main_v42 y
  refine congrArg (V c main_v42) ?_
  funext a; apply Fin.ext
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- Entry y of the output's block at point t sits at entry (5000·t + y₀, y₁) of the array. -/
theorem out_block1 (t : Fin cfg1.N) (y : S5000x128.Idx) :
    ((((cfg1.win 4).blk t).view.emb y : S100000x128.Idx) 0).val = t.val * 5000 + (y 0).val
    ∧ ((((cfg1.win 4).blk t).view.emb y : S100000x128.Idx) 1).val = (y 1).val := by
  obtain ⟨-, -, -, -, -, -, -, -, e40, e41⟩ := block_indices1 t
  constructor
  · show win1_4.index t (0 : Fin 2) * 5000 + 1 * (y 0).val = _; omega
  · show win1_4.index t (1 : Fin 2) * 128 + 1 * (y 1).val = _; omega

/-- What point t writes back is block t of the whole-array expression: the body's one store covers its buffer, its
    loads read the whole input blocks, and each input block is the matching rows of its array. -/
theorem written1 (c : Dev nD) (t : Fin cfg1.N) :
    (dat1 V c).flushed 4 t = ((cfg1.win 4).blk t).view.read (Elt Ideal) (Cert.GcnSpec.combineRelu (F := Ideal) (V c main_v39) (V c main_v4) (V c main_v41) (V c main_v42)) := by
  show (cfg1.win 4).cut (grid1.coords t) ((dat1 V c).after 4 t) = _
  rw [after1_4]
  unfold out1_4
  rw [View.canon_unit_zero zero_offsets]
  simp only [View.ld_unit_zero (S := S5000x128) zero_offsets, View.ld_unit_zero (S := S5000x1) zero_offsets,
    View.ld_unit_zero (S := S1x128) zero_offsets]
  funext j
  obtain ⟨p, q, rfl⟩ : ∃ (p : Fin 5000) (q : Fin 128), j = ix2 p q := ⟨j 0, j 1, eq_ix2 j⟩
  obtain ⟨o0, o1⟩ := out_block1 t (ix2 p q)
  refine (body1_apply (iblk1 V c 0 t) (iblk1 V c 1 t) (iblk1 V c 2 t) (iblk1 V c 3 t) p q).trans ?_
  rw [agg_block1 V c t (ix2 p q) (((cfg1.win 4).blk t).view.emb (ix2 p q)) o0 o1,
    h_block1 V c t (ix2 p q) (((cfg1.win 4).blk t).view.emb (ix2 p q)) o0 o1,
    d_block1 V c t (ix2 p (0 : Fin 1)) (ix2 ((((cfg1.win 4).blk t).view.emb (ix2 p q) : S100000x128.Idx) 0) (0 : Fin 1)) o0,
    b_block1 V c t (ix2 (0 : Fin 1) q)]
  have hq : (ix2 (0 : Fin 1) q : S1x128.Idx) = ix2 (0 : Fin 1) ((((cfg1.win 4).blk t).view.emb (ix2 p q) : S100000x128.Idx) 1) := by
    funext a
    match a with
    | ⟨0, _⟩ => rfl
    | ⟨1, _⟩ => exact Fin.ext o1.symm
  rw [hq]
  rfl

/-- An entry of the output array is in point t's block iff each coordinate is in the block's range on its axis. -/
theorem mem_block1 (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v43).slice (win1_4.rect t)).set ↔ _
  rw [View.set_slice_whole, Rect.mem_set_unit]
  exact Iff.rfl

/-- The twenty row blocks cover the array: row r is in the block of point r / 5000. -/
theorem cover1 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  obtain ⟨t, ht⟩ := point_of_block1 ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_block1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The output array after the region: the whole-array expression of the arrays the region found. -/
theorem region1 (c : Dev nD) :
    (Gen.dat1 (F := Ideal) V c).arrAt 4 cfg1.N = Cert.GcnSpec.combineRelu (F := Ideal) (V c main_v39) (V c main_v4) (V c main_v41) (V c main_v42) :=
  (dat1 V c).arrAt_eq_of_cover 4 (Cert.GcnSpec.combineRelu (F := Ideal) (V c main_v39) (V c main_v4) (V c main_v41) (V c main_v42)) (fun t _ => written1 V c t) cover1

/-! ## Region 3: (agg + h · d) + b -/

/-- The body's result at row p, column q of a block: the casts between equal shapes are identities, the one-column
    weight block broadcast along the columns reads its row's entry (p, 0), the one-row bias broadcast down the rows
    reads its column's entry (0, q), and the arithmetic is entry by entry. -/
theorem body3_apply (x0 x1 : Vec Ideal S5000x128 .f32) (x2 : Vec Ideal S5000x1 .f32) (x3 : Vec Ideal S1x128 .f32)
    (p : Fin 5000) (q : Fin 128) :
    k3_pay1 x0 x1 x2 x3 (ix2 p q)
      = FloatOps.addf (FloatOps.addf (x0 (ix2 p q)) (FloatOps.mulf (x1 (ix2 p q)) (x2 (ix2 p (0 : Fin 1))))) (x3 (ix2 (0 : Fin 1) q)) := by
  have hcol : broadcastTo S5000x128 x2 broadcasts_S5000x1_S5000x128 (ix2 p q) = x2 (ix2 p (0 : Fin 1)) :=
    ColumnBroadcast.broadcastTo_a1_ab_apply (a := 5000) (b := 128) x2 broadcasts_S5000x1_S5000x128 p q
  have hrow : broadcastTo S5000x128 x3 broadcasts_S1x128_S5000x128 (ix2 p q) = x3 (ix2 (0 : Fin 1) q) :=
    OneRowMatrix.broadcast_row_apply (m := 5000) (n := 128) x3 broadcasts_S1x128_S5000x128 p q
  unfold k3_pay1
  simp only [shapeCast_self]
  rw [addf_apply, addf_apply, mulf_apply, hcol, hrow]
  rfl

/-- The grid's index maps, decided over the 20 points: the three row-blocked inputs and the output sit at block
    (t, 0), the bias at block (0, 0). -/
theorem block_indices3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Every row block of the output is some point's. -/
theorem point_of_block3 : ∀ k : Fin 20, ∃ t : Fin cfg3.N, win3_4.index t = ![k.val, 0] :=
  (by decide +kernel : ∀ k : Fin 20, ∃ t : Fin grid3.N, win3_4.index t = ![k.val, 0])

/-- Point t's block of agg is rows 5000·t … of the array: entry y of the block is entry i of the array when
    i = (5000·t + y₀, y₁). -/
theorem agg_block3 (c : Dev nD) (t : Fin cfg3.N) (y : S5000x128.Idx) (i : S100000x128.Idx)
    (h0 : (i 0).val = t.val * 5000 + (y 0).val) (h1 : (i 1).val = (y 1).val) :
    (iblk3 V c 0 t : Vec Ideal S5000x128 .f32) y = (V c main_v83 : S100000x128.Idx → Elt Ideal .f32) i := by
  obtain ⟨e00, e01, -⟩ := block_indices3 t
  show V c main_v83 (((cfg3.win 0).blk t).view.emb y) = V c main_v83 i
  refine congrArg (V c main_v83) ?_
  funext a; apply Fin.ext
  match a with
  | ⟨0, _⟩ => show win3_0.index t (0 : Fin 2) * 5000 + 1 * (y 0).val = (i 0).val; omega
  | ⟨1, _⟩ => show win3_0.index t (1 : Fin 2) * 128 + 1 * (y 1).val = (i 1).val; omega

/-- The same for h. -/
theorem h_block3 (c : Dev nD) (t : Fin cfg3.N) (y : S5000x128.Idx) (i : S100000x128.Idx)
    (h0 : (i 0).val = t.val * 5000 + (y 0).val) (h1 : (i 1).val = (y 1).val) :
    (iblk3 V c 1 t : Vec Ideal S5000x128 .f32) y = (V c main_v48 : S100000x128.Idx → Elt Ideal .f32) i := by
  obtain ⟨-, -, e10, e11, -⟩ := block_indices3 t
  show V c main_v48 (((cfg3.win 1).blk t).view.emb y) = V c main_v48 i
  refine congrArg (V c main_v48) ?_
  funext a; apply Fin.ext
  match a with
  | ⟨0, _⟩ => show win3_1.index t (0 : Fin 2) * 5000 + 1 * (y 0).val = (i 0).val; omega
  | ⟨1, _⟩ => show win3_1.index t (1 : Fin 2) * 128 + 1 * (y 1).val = (i 1).val; omega

/-- Point t's block of the weights d is rows 5000·t … of the one-column array. -/
theorem d_block3 (c : Dev nD) (t : Fin cfg3.N) (y : S5000x1.Idx) (i : S100000x1.Idx)
    (h0 : (i 0).val = t.val * 5000 + (y 0).val) :
    (iblk3 V c 2 t : Vec Ideal S5000x1 .f32) y = (V c main_v85 : S100000x1.Idx → Elt Ideal .f32) i := by
  obtain ⟨-, -, -, -, e20, e21, -⟩ := block_indices3 t
  show V c main_v85 (((cfg3.win 2).blk t).view.emb y) = V c main_v85 i
  refine congrArg (V c main_v85) ?_
  funext a; apply Fin.ext
  match a with
  | ⟨0, _⟩ => show win3_2.index t (0 : Fin 2) * 5000 + 1 * (y 0).val = (i 0).val; omega
  | ⟨1, _⟩ =>
    show win3_2.index t (1 : Fin 2) * 1 + 1 * (y 1).val = (i 1).val
    have hy : (y 1).val < 1 := (y 1).isLt
    have hi : (i 1).val < 1 := (i 1).isLt
    omega

/-- Every point's block of the bias b is the whole one-row array. -/
theorem b_block3 (c : Dev nD) (t : Fin cfg3.N) (y : S1x128.Idx) :
    (iblk3 V c 3 t : Vec Ideal S1x128 .f32) y = (V c main_v86 : S1x128.Idx → Elt Ideal .f32) y := by
  obtain ⟨-, -, -, -, -, -, e30, e31, -⟩ := block_indices3 t
  show V c main_v86 (((cfg3.win 3).blk t).view.emb y) = V c main_v86 y
  refine congrArg (V c main_v86) ?_
  funext a; apply Fin.ext
  match a with
  | ⟨0, _⟩ => show win3_3.index t (0 : Fin 2) * 1 + 1 * (y 0).val = (y 0).val; omega
  | ⟨1, _⟩ => show win3_3.index t (1 : Fin 2) * 128 + 1 * (y 1).val = (y 1).val; omega

/-- Entry y of the output's block at point t sits at entry (5000·t + y₀, y₁) of the array. -/
theorem out_block3 (t : Fin cfg3.N) (y : S5000x128.Idx) :
    ((((cfg3.win 4).blk t).view.emb y : S100000x128.Idx) 0).val = t.val * 5000 + (y 0).val
    ∧ ((((cfg3.win 4).blk t).view.emb y : S100000x128.Idx) 1).val = (y 1).val := by
  obtain ⟨-, -, -, -, -, -, -, -, e40, e41⟩ := block_indices3 t
  constructor
  · show win3_4.index t (0 : Fin 2) * 5000 + 1 * (y 0).val = _; omega
  · show win3_4.index t (1 : Fin 2) * 128 + 1 * (y 1).val = _; omega

/-- What point t writes back is block t of the whole-array expression: the body's one store covers its buffer, its
    loads read the whole input blocks, and each input block is the matching rows of its array. -/
theorem written3 (c : Dev nD) (t : Fin cfg3.N) :
    (dat3 V c).flushed 4 t = ((cfg3.win 4).blk t).view.read (Elt Ideal) (Cert.GcnSpec.combine (F := Ideal) (V c main_v83) (V c main_v48) (V c main_v85) (V c main_v86)) := by
  show (cfg3.win 4).cut (grid3.coords t) ((dat3 V c).after 4 t) = _
  rw [after3_4]
  unfold out3_4
  rw [View.canon_unit_zero zero_offsets]
  simp only [View.ld_unit_zero (S := S5000x128) zero_offsets, View.ld_unit_zero (S := S5000x1) zero_offsets,
    View.ld_unit_zero (S := S1x128) zero_offsets]
  funext j
  obtain ⟨p, q, rfl⟩ : ∃ (p : Fin 5000) (q : Fin 128), j = ix2 p q := ⟨j 0, j 1, eq_ix2 j⟩
  obtain ⟨o0, o1⟩ := out_block3 t (ix2 p q)
  refine (body3_apply (iblk3 V c 0 t) (iblk3 V c 1 t) (iblk3 V c 2 t) (iblk3 V c 3 t) p q).trans ?_
  rw [agg_block3 V c t (ix2 p q) (((cfg3.win 4).blk t).view.emb (ix2 p q)) o0 o1,
    h_block3 V c t (ix2 p q) (((cfg3.win 4).blk t).view.emb (ix2 p q)) o0 o1,
    d_block3 V c t (ix2 p (0 : Fin 1)) (ix2 ((((cfg3.win 4).blk t).view.emb (ix2 p q) : S100000x128.Idx) 0) (0 : Fin 1)) o0,
    b_block3 V c t (ix2 (0 : Fin 1) q)]
  have hq : (ix2 (0 : Fin 1) q : S1x128.Idx) = ix2 (0 : Fin 1) ((((cfg3.win 4).blk t).view.emb (ix2 p q) : S100000x128.Idx) 1) := by
    funext a
    match a with
    | ⟨0, _⟩ => rfl
    | ⟨1, _⟩ => exact Fin.ext o1.symm
  rw [hq]
  rfl

/-- An entry of the output array is in point t's block iff each coordinate is in the block's range on its axis. -/
theorem mem_block3 (t : Fin cfg3.N) (i : S100000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v87).slice (win3_4.rect t)).set ↔ _
  rw [View.set_slice_whole, Rect.mem_set_unit]
  exact Iff.rfl

/-- The twenty row blocks cover the array: row r is in the block of point r / 5000. -/
theorem cover3 (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  obtain ⟨t, ht⟩ := point_of_block3 ⟨(i 0).val / 5000, by omega⟩
  have q0 : win3_4.index t (0 : Fin 2) = (i 0).val / 5000 := congrFun ht 0
  have q1 : win3_4.index t (1 : Fin 2) = 0 := congrFun ht 1
  refine ⟨t, flush3_4 t, ?_⟩
  rw [mem_block3]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 128 ≤ (i 1).val ∧ (i 1).val < win3_4.index t (1 : Fin 2) * 128 + 128; omega

/-- The output array after the region: the whole-array expression of the arrays the region found. -/
theorem region3 (c : Dev nD) :
    (Gen.dat3 (F := Ideal) V c).arrAt 4 cfg3.N = Cert.GcnSpec.combine (F := Ideal) (V c main_v83) (V c main_v48) (V c main_v85) (V c main_v86) :=
  (dat3 V c).arrAt_eq_of_cover 4 (Cert.GcnSpec.combine (F := Ideal) (V c main_v83) (V c main_v48) (V c main_v85) (V c main_v86)) (fun t _ => written3 V c t) cover3

/-! ## Region 5: max((agg + h · d) + b, 0) -/

/-- The body's result at row p, column q of a block: the casts between equal shapes are identities, the one-column
    weight block broadcast along the columns reads its row's entry (p, 0), the one-row bias broadcast down the rows
    reads its column's entry (0, q), and the arithmetic is entry by entry. -/
theorem body5_apply (x0 x1 : Vec Ideal S5000x128 .f32) (x2 : Vec Ideal S5000x1 .f32) (x3 : Vec Ideal S1x128 .f32)
    (p : Fin 5000) (q : Fin 128) :
    k5_pay1 x0 x1 x2 x3 (ix2 p q)
      = FloatOps.maximumf (FloatOps.addf (FloatOps.addf (x0 (ix2 p q)) (FloatOps.mulf (x1 (ix2 p q)) (x2 (ix2 p (0 : Fin 1))))) (x3 (ix2 (0 : Fin 1) q))) (FloatOps.ofBits .f32 0x00000000#32) := by
  have hcol : broadcastTo S5000x128 x2 broadcasts_S5000x1_S5000x128 (ix2 p q) = x2 (ix2 p (0 : Fin 1)) :=
    ColumnBroadcast.broadcastTo_a1_ab_apply (a := 5000) (b := 128) x2 broadcasts_S5000x1_S5000x128 p q
  have hrow : broadcastTo S5000x128 x3 broadcasts_S1x128_S5000x128 (ix2 p q) = x3 (ix2 (0 : Fin 1) q) :=
    OneRowMatrix.broadcast_row_apply (m := 5000) (n := 128) x3 broadcasts_S1x128_S5000x128 p q
  unfold k5_pay1
  simp only [shapeCast_self]
  rw [maximumf_apply, addf_apply, addf_apply, mulf_apply, hcol, hrow, broadcast_apply]
  rfl

/-- The grid's index maps, decided over the 20 points: the three row-blocked inputs and the output sit at block
    (t, 0), the bias at block (0, 0). -/
theorem block_indices5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- Every row block of the output is some point's. -/
theorem point_of_block5 : ∀ k : Fin 20, ∃ t : Fin cfg5.N, win5_4.index t = ![k.val, 0] :=
  (by decide +kernel : ∀ k : Fin 20, ∃ t : Fin grid5.N, win5_4.index t = ![k.val, 0])

/-- Point t's block of agg is rows 5000·t … of the array: entry y of the block is entry i of the array when
    i = (5000·t + y₀, y₁). -/
theorem agg_block5 (c : Dev nD) (t : Fin cfg5.N) (y : S5000x128.Idx) (i : S100000x128.Idx)
    (h0 : (i 0).val = t.val * 5000 + (y 0).val) (h1 : (i 1).val = (y 1).val) :
    (iblk5 V c 0 t : Vec Ideal S5000x128 .f32) y = (V c main_v127 : S100000x128.Idx → Elt Ideal .f32) i := by
  obtain ⟨e00, e01, -⟩ := block_indices5 t
  show V c main_v127 (((cfg5.win 0).blk t).view.emb y) = V c main_v127 i
  refine congrArg (V c main_v127) ?_
  funext a; apply Fin.ext
  match a with
  | ⟨0, _⟩ => show win5_0.index t (0 : Fin 2) * 5000 + 1 * (y 0).val = (i 0).val; omega
  | ⟨1, _⟩ => show win5_0.index t (1 : Fin 2) * 128 + 1 * (y 1).val = (i 1).val; omega

/-- The same for h. -/
theorem h_block5 (c : Dev nD) (t : Fin cfg5.N) (y : S5000x128.Idx) (i : S100000x128.Idx)
    (h0 : (i 0).val = t.val * 5000 + (y 0).val) (h1 : (i 1).val = (y 1).val) :
    (iblk5 V c 1 t : Vec Ideal S5000x128 .f32) y = (V c main_v92 : S100000x128.Idx → Elt Ideal .f32) i := by
  obtain ⟨-, -, e10, e11, -⟩ := block_indices5 t
  show V c main_v92 (((cfg5.win 1).blk t).view.emb y) = V c main_v92 i
  refine congrArg (V c main_v92) ?_
  funext a; apply Fin.ext
  match a with
  | ⟨0, _⟩ => show win5_1.index t (0 : Fin 2) * 5000 + 1 * (y 0).val = (i 0).val; omega
  | ⟨1, _⟩ => show win5_1.index t (1 : Fin 2) * 128 + 1 * (y 1).val = (i 1).val; omega

/-- Point t's block of the weights d is rows 5000·t … of the one-column array. -/
theorem d_block5 (c : Dev nD) (t : Fin cfg5.N) (y : S5000x1.Idx) (i : S100000x1.Idx)
    (h0 : (i 0).val = t.val * 5000 + (y 0).val) :
    (iblk5 V c 2 t : Vec Ideal S5000x1 .f32) y = (V c main_v129 : S100000x1.Idx → Elt Ideal .f32) i := by
  obtain ⟨-, -, -, -, e20, e21, -⟩ := block_indices5 t
  show V c main_v129 (((cfg5.win 2).blk t).view.emb y) = V c main_v129 i
  refine congrArg (V c main_v129) ?_
  funext a; apply Fin.ext
  match a with
  | ⟨0, _⟩ => show win5_2.index t (0 : Fin 2) * 5000 + 1 * (y 0).val = (i 0).val; omega
  | ⟨1, _⟩ =>
    show win5_2.index t (1 : Fin 2) * 1 + 1 * (y 1).val = (i 1).val
    have hy : (y 1).val < 1 := (y 1).isLt
    have hi : (i 1).val < 1 := (i 1).isLt
    omega

/-- Every point's block of the bias b is the whole one-row array. -/
theorem b_block5 (c : Dev nD) (t : Fin cfg5.N) (y : S1x128.Idx) :
    (iblk5 V c 3 t : Vec Ideal S1x128 .f32) y = (V c main_v130 : S1x128.Idx → Elt Ideal .f32) y := by
  obtain ⟨-, -, -, -, -, -, e30, e31, -⟩ := block_indices5 t
  show V c main_v130 (((cfg5.win 3).blk t).view.emb y) = V c main_v130 y
  refine congrArg (V c main_v130) ?_
  funext a; apply Fin.ext
  match a with
  | ⟨0, _⟩ => show win5_3.index t (0 : Fin 2) * 1 + 1 * (y 0).val = (y 0).val; omega
  | ⟨1, _⟩ => show win5_3.index t (1 : Fin 2) * 128 + 1 * (y 1).val = (y 1).val; omega

/-- Entry y of the output's block at point t sits at entry (5000·t + y₀, y₁) of the array. -/
theorem out_block5 (t : Fin cfg5.N) (y : S5000x128.Idx) :
    ((((cfg5.win 4).blk t).view.emb y : S100000x128.Idx) 0).val = t.val * 5000 + (y 0).val
    ∧ ((((cfg5.win 4).blk t).view.emb y : S100000x128.Idx) 1).val = (y 1).val := by
  obtain ⟨-, -, -, -, -, -, -, -, e40, e41⟩ := block_indices5 t
  constructor
  · show win5_4.index t (0 : Fin 2) * 5000 + 1 * (y 0).val = _; omega
  · show win5_4.index t (1 : Fin 2) * 128 + 1 * (y 1).val = _; omega

/-- What point t writes back is block t of the whole-array expression: the body's one store covers its buffer, its
    loads read the whole input blocks, and each input block is the matching rows of its array. -/
theorem written5 (c : Dev nD) (t : Fin cfg5.N) :
    (dat5 V c).flushed 4 t = ((cfg5.win 4).blk t).view.read (Elt Ideal) (Cert.GcnSpec.combineRelu (F := Ideal) (V c main_v127) (V c main_v92) (V c main_v129) (V c main_v130)) := by
  show (cfg5.win 4).cut (grid5.coords t) ((dat5 V c).after 4 t) = _
  rw [after5_4]
  unfold out5_4
  rw [View.canon_unit_zero zero_offsets]
  simp only [View.ld_unit_zero (S := S5000x128) zero_offsets, View.ld_unit_zero (S := S5000x1) zero_offsets,
    View.ld_unit_zero (S := S1x128) zero_offsets]
  funext j
  obtain ⟨p, q, rfl⟩ : ∃ (p : Fin 5000) (q : Fin 128), j = ix2 p q := ⟨j 0, j 1, eq_ix2 j⟩
  obtain ⟨o0, o1⟩ := out_block5 t (ix2 p q)
  refine (body5_apply (iblk5 V c 0 t) (iblk5 V c 1 t) (iblk5 V c 2 t) (iblk5 V c 3 t) p q).trans ?_
  rw [agg_block5 V c t (ix2 p q) (((cfg5.win 4).blk t).view.emb (ix2 p q)) o0 o1,
    h_block5 V c t (ix2 p q) (((cfg5.win 4).blk t).view.emb (ix2 p q)) o0 o1,
    d_block5 V c t (ix2 p (0 : Fin 1)) (ix2 ((((cfg5.win 4).blk t).view.emb (ix2 p q) : S100000x128.Idx) 0) (0 : Fin 1)) o0,
    b_block5 V c t (ix2 (0 : Fin 1) q)]
  have hq : (ix2 (0 : Fin 1) q : S1x128.Idx) = ix2 (0 : Fin 1) ((((cfg5.win 4).blk t).view.emb (ix2 p q) : S100000x128.Idx) 1) := by
    funext a
    match a with
    | ⟨0, _⟩ => rfl
    | ⟨1, _⟩ => exact Fin.ext o1.symm
  rw [hq]
  rfl

/-- An entry of the output array is in point t's block iff each coordinate is in the block's range on its axis. -/
theorem mem_block5 (t : Fin cfg5.N) (i : S100000x128.Idx) :
    i ∈ ((cfg5.win 4).blk t).view.set ↔ ∀ a : Fin 2, win5_4.index t a * S5000x128.size a ≤ (i a).val ∧ (i a).val < win5_4.index t a * S5000x128.size a + S5000x128.size a := by
  show i ∈ ((View.whole main_v131).slice (win5_4.rect t)).set ↔ _
  rw [View.set_slice_whole, Rect.mem_set_unit]
  exact Iff.rfl

/-- The twenty row blocks cover the array: row r is in the block of point r / 5000. -/
theorem cover5 (i : S100000x128.Idx) :
    ∃ t : Fin cfg5.N, (cfg5.win 4).flush t = true ∧ i ∈ ((cfg5.win 4).blk t).view.set := by
  have hi0 : (i 0).val < 100000 := (i 0).isLt
  have hi1 : (i 1).val < 128 := (i 1).isLt
  obtain ⟨t, ht⟩ := point_of_block5 ⟨(i 0).val / 5000, by omega⟩
  have q0 : win5_4.index t (0 : Fin 2) = (i 0).val / 5000 := congrFun ht 0
  have q1 : win5_4.index t (1 : Fin 2) = 0 := congrFun ht 1
  refine ⟨t, flush5_4 t, ?_⟩
  rw [mem_block5]
  intro a
  match a with
  | ⟨0, _⟩ => show win5_4.index t (0 : Fin 2) * 5000 ≤ (i 0).val ∧ (i 0).val < win5_4.index t (0 : Fin 2) * 5000 + 5000; omega
  | ⟨1, _⟩ => show win5_4.index t (1 : Fin 2) * 128 ≤ (i 1).val ∧ (i 1).val < win5_4.index t (1 : Fin 2) * 128 + 128; omega

/-- The output array after the region: the whole-array expression of the arrays the region found. -/
theorem region5 (c : Dev nD) :
    (Gen.dat5 (F := Ideal) V c).arrAt 4 cfg5.N = Cert.GcnSpec.combineRelu (F := Ideal) (V c main_v127) (V c main_v92) (V c main_v129) (V c main_v130) :=
  (dat5 V c).arrAt_eq_of_cover 4 (Cert.GcnSpec.combineRelu (F := Ideal) (V c main_v127) (V c main_v92) (V c main_v129) (V c main_v130)) (fun t _ => written5 V c t) cover5

/-! ## Region 7: (agg + h · d) + b -/

/-- The body's result at row p, column q of a block: the casts between equal shapes are identities, the one-column
    weight block broadcast along the columns reads its row's entry (p, 0), the one-row bias broadcast down the rows
    reads its column's entry (0, q), and the arithmetic is entry by entry. -/
theorem body7_apply (x0 x1 : Vec Ideal S5000x128 .f32) (x2 : Vec Ideal S5000x1 .f32) (x3 : Vec Ideal S1x128 .f32)
    (p : Fin 5000) (q : Fin 128) :
    k7_pay1 x0 x1 x2 x3 (ix2 p q)
      = FloatOps.addf (FloatOps.addf (x0 (ix2 p q)) (FloatOps.mulf (x1 (ix2 p q)) (x2 (ix2 p (0 : Fin 1))))) (x3 (ix2 (0 : Fin 1) q)) := by
  have hcol : broadcastTo S5000x128 x2 broadcasts_S5000x1_S5000x128 (ix2 p q) = x2 (ix2 p (0 : Fin 1)) :=
    ColumnBroadcast.broadcastTo_a1_ab_apply (a := 5000) (b := 128) x2 broadcasts_S5000x1_S5000x128 p q
  have hrow : broadcastTo S5000x128 x3 broadcasts_S1x128_S5000x128 (ix2 p q) = x3 (ix2 (0 : Fin 1) q) :=
    OneRowMatrix.broadcast_row_apply (m := 5000) (n := 128) x3 broadcasts_S1x128_S5000x128 p q
  unfold k7_pay1
  simp only [shapeCast_self]
  rw [addf_apply, addf_apply, mulf_apply, hcol, hrow]
  rfl

/-- The grid's index maps, decided over the 20 points: the three row-blocked inputs and the output sit at block
    (t, 0), the bias at block (0, 0). -/
theorem block_indices7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0 :=
  (by decide +kernel : ∀ t : Fin grid7.N, _)

/-- Every row block of the output is some point's. -/
theorem point_of_block7 : ∀ k : Fin 20, ∃ t : Fin cfg7.N, win7_4.index t = ![k.val, 0] :=
  (by decide +kernel : ∀ k : Fin 20, ∃ t : Fin grid7.N, win7_4.index t = ![k.val, 0])

/-- Point t's block of agg is rows 5000·t … of the array: entry y of the block is entry i of the array when
    i = (5000·t + y₀, y₁). -/
theorem agg_block7 (c : Dev nD) (t : Fin cfg7.N) (y : S5000x128.Idx) (i : S100000x128.Idx)
    (h0 : (i 0).val = t.val * 5000 + (y 0).val) (h1 : (i 1).val = (y 1).val) :
    (iblk7 V c 0 t : Vec Ideal S5000x128 .f32) y = (V c main_v171 : S100000x128.Idx → Elt Ideal .f32) i := by
  obtain ⟨e00, e01, -⟩ := block_indices7 t
  show V c main_v171 (((cfg7.win 0).blk t).view.emb y) = V c main_v171 i
  refine congrArg (V c main_v171) ?_
  funext a; apply Fin.ext
  match a with
  | ⟨0, _⟩ => show win7_0.index t (0 : Fin 2) * 5000 + 1 * (y 0).val = (i 0).val; omega
  | ⟨1, _⟩ => show win7_0.index t (1 : Fin 2) * 128 + 1 * (y 1).val = (i 1).val; omega

/-- The same for h. -/
theorem h_block7 (c : Dev nD) (t : Fin cfg7.N) (y : S5000x128.Idx) (i : S100000x128.Idx)
    (h0 : (i 0).val = t.val * 5000 + (y 0).val) (h1 : (i 1).val = (y 1).val) :
    (iblk7 V c 1 t : Vec Ideal S5000x128 .f32) y = (V c main_v136 : S100000x128.Idx → Elt Ideal .f32) i := by
  obtain ⟨-, -, e10, e11, -⟩ := block_indices7 t
  show V c main_v136 (((cfg7.win 1).blk t).view.emb y) = V c main_v136 i
  refine congrArg (V c main_v136) ?_
  funext a; apply Fin.ext
  match a with
  | ⟨0, _⟩ => show win7_1.index t (0 : Fin 2) * 5000 + 1 * (y 0).val = (i 0).val; omega
  | ⟨1, _⟩ => show win7_1.index t (1 : Fin 2) * 128 + 1 * (y 1).val = (i 1).val; omega

/-- Point t's block of the weights d is rows 5000·t … of the one-column array. -/
theorem d_block7 (c : Dev nD) (t : Fin cfg7.N) (y : S5000x1.Idx) (i : S100000x1.Idx)
    (h0 : (i 0).val = t.val * 5000 + (y 0).val) :
    (iblk7 V c 2 t : Vec Ideal S5000x1 .f32) y = (V c main_v173 : S100000x1.Idx → Elt Ideal .f32) i := by
  obtain ⟨-, -, -, -, e20, e21, -⟩ := block_indices7 t
  show V c main_v173 (((cfg7.win 2).blk t).view.emb y) = V c main_v173 i
  refine congrArg (V c main_v173) ?_
  funext a; apply Fin.ext
  match a with
  | ⟨0, _⟩ => show win7_2.index t (0 : Fin 2) * 5000 + 1 * (y 0).val = (i 0).val; omega
  | ⟨1, _⟩ =>
    show win7_2.index t (1 : Fin 2) * 1 + 1 * (y 1).val = (i 1).val
    have hy : (y 1).val < 1 := (y 1).isLt
    have hi : (i 1).val < 1 := (i 1).isLt
    omega

/-- Every point's block of the bias b is the whole one-row array. -/
theorem b_block7 (c : Dev nD) (t : Fin cfg7.N) (y : S1x128.Idx) :
    (iblk7 V c 3 t : Vec Ideal S1x128 .f32) y = (V c main_v174 : S1x128.Idx → Elt Ideal .f32) y := by
  obtain ⟨-, -, -, -, -, -, e30, e31, -⟩ := block_indices7 t
  show V c main_v174 (((cfg7.win 3).blk t).view.emb y) = V c main_v174 y
  refine congrArg (V c main_v174) ?_
  funext a; apply Fin.ext
  match a with
  | ⟨0, _⟩ => show win7_3.index t (0 : Fin 2) * 1 + 1 * (y 0).val = (y 0).val; omega
  | ⟨1, _⟩ => show win7_3.index t (1 : Fin 2) * 128 + 1 * (y 1).val = (y 1).val; omega

/-- Entry y of the output's block at point t sits at entry (5000·t + y₀, y₁) of the array. -/
theorem out_block7 (t : Fin cfg7.N) (y : S5000x128.Idx) :
    ((((cfg7.win 4).blk t).view.emb y : S100000x128.Idx) 0).val = t.val * 5000 + (y 0).val
    ∧ ((((cfg7.win 4).blk t).view.emb y : S100000x128.Idx) 1).val = (y 1).val := by
  obtain ⟨-, -, -, -, -, -, -, -, e40, e41⟩ := block_indices7 t
  constructor
  · show win7_4.index t (0 : Fin 2) * 5000 + 1 * (y 0).val = _; omega
  · show win7_4.index t (1 : Fin 2) * 128 + 1 * (y 1).val = _; omega

/-- What point t writes back is block t of the whole-array expression: the body's one store covers its buffer, its
    loads read the whole input blocks, and each input block is the matching rows of its array. -/
theorem written7 (c : Dev nD) (t : Fin cfg7.N) :
    (dat7 V c).flushed 4 t = ((cfg7.win 4).blk t).view.read (Elt Ideal) (Cert.GcnSpec.combine (F := Ideal) (V c main_v171) (V c main_v136) (V c main_v173) (V c main_v174)) := by
  show (cfg7.win 4).cut (grid7.coords t) ((dat7 V c).after 4 t) = _
  rw [after7_4]
  unfold out7_4
  rw [View.canon_unit_zero zero_offsets]
  simp only [View.ld_unit_zero (S := S5000x128) zero_offsets, View.ld_unit_zero (S := S5000x1) zero_offsets,
    View.ld_unit_zero (S := S1x128) zero_offsets]
  funext j
  obtain ⟨p, q, rfl⟩ : ∃ (p : Fin 5000) (q : Fin 128), j = ix2 p q := ⟨j 0, j 1, eq_ix2 j⟩
  obtain ⟨o0, o1⟩ := out_block7 t (ix2 p q)
  refine (body7_apply (iblk7 V c 0 t) (iblk7 V c 1 t) (iblk7 V c 2 t) (iblk7 V c 3 t) p q).trans ?_
  rw [agg_block7 V c t (ix2 p q) (((cfg7.win 4).blk t).view.emb (ix2 p q)) o0 o1,
    h_block7 V c t (ix2 p q) (((cfg7.win 4).blk t).view.emb (ix2 p q)) o0 o1,
    d_block7 V c t (ix2 p (0 : Fin 1)) (ix2 ((((cfg7.win 4).blk t).view.emb (ix2 p q) : S100000x128.Idx) 0) (0 : Fin 1)) o0,
    b_block7 V c t (ix2 (0 : Fin 1) q)]
  have hq : (ix2 (0 : Fin 1) q : S1x128.Idx) = ix2 (0 : Fin 1) ((((cfg7.win 4).blk t).view.emb (ix2 p q) : S100000x128.Idx) 1) := by
    funext a
    match a with
    | ⟨0, _⟩ => rfl
    | ⟨1, _⟩ => exact Fin.ext o1.symm
  rw [hq]
  rfl

/-- An entry of the output array is in point t's block iff each coordinate is in the block's range on its axis. -/
theorem mem_block7 (t : Fin cfg7.N) (i : S100000x128.Idx) :
    i ∈ ((cfg7.win 4).blk t).view.set ↔ ∀ a : Fin 2, win7_4.index t a * S5000x128.size a ≤ (i a).val ∧ (i a).val < win7_4.index t a * S5000x128.size a + S5000x128.size a := by
  show i ∈ ((View.whole main_v175).slice (win7_4.rect t)).set ↔ _
  rw [View.set_slice_whole, Rect.mem_set_unit]
  exact Iff.rfl

/-- The twenty row blocks cover the array: row r is in the block of point r / 5000. -/
theorem cover7 (i : S100000x128.Idx) :
    ∃ t : Fin cfg7.N, (cfg7.win 4).flush t = true ∧ i ∈ ((cfg7.win 4).blk t).view.set := by
  have hi0 : (i 0).val < 100000 := (i 0).isLt
  have hi1 : (i 1).val < 128 := (i 1).isLt
  obtain ⟨t, ht⟩ := point_of_block7 ⟨(i 0).val / 5000, by omega⟩
  have q0 : win7_4.index t (0 : Fin 2) = (i 0).val / 5000 := congrFun ht 0
  have q1 : win7_4.index t (1 : Fin 2) = 0 := congrFun ht 1
  refine ⟨t, flush7_4 t, ?_⟩
  rw [mem_block7]
  intro a
  match a with
  | ⟨0, _⟩ => show win7_4.index t (0 : Fin 2) * 5000 ≤ (i 0).val ∧ (i 0).val < win7_4.index t (0 : Fin 2) * 5000 + 5000; omega
  | ⟨1, _⟩ => show win7_4.index t (1 : Fin 2) * 128 ≤ (i 1).val ∧ (i 1).val < win7_4.index t (1 : Fin 2) * 128 + 128; omega

/-- The output array after the region: the whole-array expression of the arrays the region found. -/
theorem region7 (c : Dev nD) :
    (Gen.dat7 (F := Ideal) V c).arrAt 4 cfg7.N = Cert.GcnSpec.combine (F := Ideal) (V c main_v171) (V c main_v136) (V c main_v173) (V c main_v174) :=
  (dat7 V c).arrAt_eq_of_cover 4 (Cert.GcnSpec.combine (F := Ideal) (V c main_v171) (V c main_v136) (V c main_v173) (V c main_v174)) (fun t _ => written7 V c t) cover7

end Cert.KernelIdeal.CombineBlocks

end
-- ==== Proof.RefDot.lean ====
/-
  The reference's matrix product, as an array.

  The reference multiplies a [100000, 128] array x by a [128, 128] weight w with one `dot_general` that contracts the
  left operand's second axis against the right operand's first and has no batch axis. On the extended reals, where no
  operation rounds and a sum has no order, its entry (p, q) is ∑ₖ x(p, k) · w(k, q): the product array x · w.
-/
import proofs.«180140_j70136815943749_1_alg».proof.ReferenceIdeal
import proofs.«180140_j70136815943749_1_alg».proof.Proof.LibMatrixProduct

noncomputable section

namespace Cert.ReferenceIdeal.RefDot

open Cert.ReferenceIdeal Idealize.ShloMosaic Idealize.ShloMosaic.ValueIdx

variable [Cert.ReferenceIdeal.Facts₀]

/-! ## The product's dimension record

It contracts one axis of extent 128 and has no batch axis: at output entry `j` and contraction position `q` it reads
the left operand at `(j 0, q)` and the right at `(q, j 1)`. -/

theorem dims_rank : dot_S100000x128_S128x128_S100000x128_1_0_0_1_n_n.contr.rank = 1 := rfl

theorem dims_extent : dot_S100000x128_S128x128_S100000x128_1_0_0_1_n_n.contr.size ⟨0, (Nat.one_pos : 0 < 1)⟩ = 128 := rfl

theorem dims_left_row (j : S100000x128.Idx) (q : dot_S100000x128_S128x128_S100000x128_1_0_0_1_n_n.contr.Idx) :
    (dot_S100000x128_S128x128_S100000x128_1_0_0_1_n_n.lhsIdx j q 0).val = (j 0).val := by
  unfold DotDims.lhsIdx
  rw [dif_neg (show ¬(0 : Fin S100000x128.rank) ∈ dot_S100000x128_S128x128_S100000x128_1_0_0_1_n_n.lhsBatch from List.not_mem_nil),
    dif_pos (show (0 : Fin S100000x128.rank) ∈ dot_S100000x128_S128x128_S100000x128_1_0_0_1_n_n.lhsNonContracting from List.mem_singleton.mpr rfl)]
  rfl

theorem dims_left_col (j : S100000x128.Idx) (q : dot_S100000x128_S128x128_S100000x128_1_0_0_1_n_n.contr.Idx) :
    (dot_S100000x128_S128x128_S100000x128_1_0_0_1_n_n.lhsIdx j q 1).val = (q ⟨0, (Nat.one_pos : 0 < 1)⟩).val :=
  dot_S100000x128_S128x128_S100000x128_1_0_0_1_n_n.lhsIdx_val_of_single rfl j q

theorem dims_right_row (j : S100000x128.Idx) (q : dot_S100000x128_S128x128_S100000x128_1_0_0_1_n_n.contr.Idx) :
    (dot_S100000x128_S128x128_S100000x128_1_0_0_1_n_n.rhsIdx j q 0).val = (q ⟨0, (Nat.one_pos : 0 < 1)⟩).val :=
  dot_S100000x128_S128x128_S100000x128_1_0_0_1_n_n.rhsIdx_val_of_single rfl j q

theorem dims_right_col (j : S100000x128.Idx) (q : dot_S100000x128_S128x128_S100000x128_1_0_0_1_n_n.contr.Idx) :
    (dot_S100000x128_S128x128_S100000x128_1_0_0_1_n_n.rhsIdx j q 1).val = (j 1).val := by
  unfold DotDims.rhsIdx
  rw [dif_neg (show ¬(1 : Fin S128x128.rank) ∈ dot_S100000x128_S128x128_S100000x128_1_0_0_1_n_n.rhsBatch from List.not_mem_nil),
    dif_pos (show (1 : Fin S128x128.rank) ∈ dot_S100000x128_S128x128_S100000x128_1_0_0_1_n_n.rhsNonContracting from List.mem_singleton.mpr rfl)]
  rfl

/-- The reference's `dot_general` of `x` and `w` is the product array `x · w`. -/
theorem dot_eq (x : FVec Ideal Cert.ReferenceIdeal.S100000x128 .f32) (w : FVec Ideal Cert.ReferenceIdeal.S128x128 .f32) :
    Host.dotGeneral Cert.ReferenceIdeal.dot_S100000x128_S128x128_S100000x128_1_0_0_1_n_n none x w
      = Idealize.ShloMosaic.MatrixProduct.prod (M := 100000) (K := 128) (N := 128) (φ₁ := .f32) (φ₂ := .f32) x w :=
  MatrixProduct.dotGeneral_eq (M := 100000) (K := 128) (N := 128) dot_S100000x128_S128x128_S100000x128_1_0_0_1_n_n
    dims_rank dims_extent dims_left_row dims_left_col dims_right_row dims_right_col none x w

end Cert.ReferenceIdeal.RefDot

end
-- ==== Proof.RefCombine.lean ====
/-
  The reference's four layer outputs, as the layer expression of their operands.

  Each graph-convolution layer of the reference ends with the same few whole-array operations: the weight column is
  broadcast along the features, multiplied into the transformed features, added to the aggregated messages, the bias row
  is broadcast down the nodes and added, and two of the four layers then take the maximum with a zero array. Read at an
  entry i = (i₀, i₁), the column broadcast reads the weight at (i₀, 0) and the row broadcast the bias at (0, i₁), so the
  layer's value is (agg + h · d) + b of its four operands entry by entry, with the maximum with the zero word where the
  layer has one.
-/
import proofs.«180140_j70136815943749_1_alg».proof.Proof.Gen.ReferenceIdeal.Read
import proofs.«180140_j70136815943749_1_alg».proof.Proof.Spec

set_option maxRecDepth 16384

noncomputable section

namespace Cert.ReferenceIdeal.RefCombine

open Cert.ReferenceIdeal Idealize.ShloMosaic Idealize.ShloMosaic.ValueIdx

/-- The value of %48: the maximum with zero of (%39 + %4 · %41) + %45, the weight column %41 read at (i₀, 0) and the
    bias row %45 at (0, i₁) — the two broadcasts to the full shape read their operand at exactly those entries. -/
theorem layer_v48 (x0 : (⟨S100000x128, .f32⟩ : BufTy).Contents (Elt Ideal)) (x1 : (⟨S2x1600000, .i32⟩ : BufTy).Contents (Elt Ideal)) (x4 : (⟨S128x128, .f32⟩ : BufTy).Contents (Elt Ideal)) (x5 : (⟨S128, .f32⟩ : BufTy).Contents (Elt Ideal)) :
    Read.val_main_v48 (F := Ideal) x0 x1 x4 x5
      = Cert.GcnSpec.combineRelu (F := Ideal) (Read.val_main_v39 (F := Ideal) x0 x1 x4) (Read.val_main_v4 (F := Ideal) x0 x4)
          (Read.val_main_v41 (F := Ideal) x1) (Read.val_main_v45 (F := Ideal) x5) := by
  funext i
  have hd : Read.idx_main_v42 i = ix2 (i 0) (0 : Fin 1) := by
    funext a
    match a with
    | ⟨0, _⟩ => rfl
    | ⟨1, _⟩ => rfl
  have hb : Read.idx_main_v46 i = ix2 (0 : Fin 1) (i 1) := by
    funext a
    match a with
    | ⟨0, _⟩ => rfl
    | ⟨1, _⟩ => rfl
  rw [Read.val_main_v48_apply, Read.val_main_v47_apply, Read.val_main_v44_apply, Read.val_main_v43_apply, Read.val_main_v42_apply, Read.val_main_v46_apply, Read.val_main_call0_v0_apply, Read.val_main_call0_cst_apply, hd, hb]
  rfl

/-- The value of %96: (%88 + %53 · %90) + %94, the weight column %90 read at (i₀, 0) and the
    bias row %94 at (0, i₁) — the two broadcasts to the full shape read their operand at exactly those entries. -/
theorem layer_v96 (x0 : (⟨S100000x128, .f32⟩ : BufTy).Contents (Elt Ideal)) (x1 : (⟨S2x1600000, .i32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) :
    Read.val_main_v96 (F := Ideal) x0 x1 x4 x5 x6 x7
      = Cert.GcnSpec.combine (F := Ideal) (Read.val_main_v88 (F := Ideal) x0 x1 x4 x5 x6) (Read.val_main_v53 (F := Ideal) x0 x1 x4 x5 x6)
          (Read.val_main_v90 (F := Ideal) x1) (Read.val_main_v94 (F := Ideal) x7) := by
  funext i
  have hd : Read.idx_main_v91 i = ix2 (i 0) (0 : Fin 1) := by
    funext a
    match a with
    | ⟨0, _⟩ => rfl
    | ⟨1, _⟩ => rfl
  have hb : Read.idx_main_v95 i = ix2 (0 : Fin 1) (i 1) := by
    funext a
    match a with
    | ⟨0, _⟩ => rfl
    | ⟨1, _⟩ => rfl
  rw [Read.val_main_v96_apply, Read.val_main_v93_apply, Read.val_main_v92_apply, Read.val_main_v91_apply, Read.val_main_v95_apply, hd, hb]
  rfl

/-- The value of %145: the maximum with zero of (%136 + %101 · %138) + %142, the weight column %138 read at (i₀, 0) and the
    bias row %142 at (0, i₁) — the two broadcasts to the full shape read their operand at exactly those entries. -/
theorem layer_v145 (x2 : (⟨S100000x128, .f32⟩ : BufTy).Contents (Elt Ideal)) (x3 : (⟨S2x1600000, .i32⟩ : BufTy).Contents (Elt Ideal)) (x4 : (⟨S128x128, .f32⟩ : BufTy).Contents (Elt Ideal)) (x5 : (⟨S128, .f32⟩ : BufTy).Contents (Elt Ideal)) :
    Read.val_main_v145 (F := Ideal) x2 x3 x4 x5
      = Cert.GcnSpec.combineRelu (F := Ideal) (Read.val_main_v136 (F := Ideal) x2 x3 x4) (Read.val_main_v101 (F := Ideal) x2 x4)
          (Read.val_main_v138 (F := Ideal) x3) (Read.val_main_v142 (F := Ideal) x5) := by
  funext i
  have hd : Read.idx_main_v139 i = ix2 (i 0) (0 : Fin 1) := by
    funext a
    match a with
    | ⟨0, _⟩ => rfl
    | ⟨1, _⟩ => rfl
  have hb : Read.idx_main_v143 i = ix2 (0 : Fin 1) (i 1) := by
    funext a
    match a with
    | ⟨0, _⟩ => rfl
    | ⟨1, _⟩ => rfl
  rw [Read.val_main_v145_apply, Read.val_main_v144_apply, Read.val_main_v141_apply, Read.val_main_v140_apply, Read.val_main_v139_apply, Read.val_main_v143_apply, Read.val_main_call1_v0_apply, Read.val_main_call1_cst_apply, hd, hb]
  rfl

/-- The value of %193: (%185 + %150 · %187) + %191, the weight column %187 read at (i₀, 0) and the
    bias row %191 at (0, i₁) — the two broadcasts to the full shape read their operand at exactly those entries. -/
theorem layer_v193 (x2 : (⟨S100000x128, .f32⟩ : BufTy).Contents (Elt Ideal)) (x3 : (⟨S2x1600000, .i32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) :
    Read.val_main_v193 (F := Ideal) x2 x3 x4 x5 x6 x7
      = Cert.GcnSpec.combine (F := Ideal) (Read.val_main_v185 (F := Ideal) x2 x3 x4 x5 x6) (Read.val_main_v150 (F := Ideal) x2 x3 x4 x5 x6)
          (Read.val_main_v187 (F := Ideal) x3) (Read.val_main_v191 (F := Ideal) x7) := by
  funext i
  have hd : Read.idx_main_v188 i = ix2 (i 0) (0 : Fin 1) := by
    funext a
    match a with
    | ⟨0, _⟩ => rfl
    | ⟨1, _⟩ => rfl
  have hb : Read.idx_main_v192 i = ix2 (0 : Fin 1) (i 1) := by
    funext a
    match a with
    | ⟨0, _⟩ => rfl
    | ⟨1, _⟩ => rfl
  rw [Read.val_main_v193_apply, Read.val_main_v190_apply, Read.val_main_v189_apply, Read.val_main_v188_apply, Read.val_main_v192_apply, hd, hb]
  rfl

end Cert.ReferenceIdeal.RefCombine

end
-- ==== Proof.Layers1.lean ====
/-
  One graph's two layers: the kernel regions joined to the host stretches between them.

  A linear region leaves the product of its input array and its weight matrix, which is the reference's host product of
  the same operands. A combine region leaves, entry by entry, the aggregated messages plus the node's own transformed
  feature times its weight plus the bias (the first layer then the maximum with zero), which is the reference's chain of
  whole-array additions, products and broadcasts read at that entry. Each region's operands are, by the stretch before it,
  the reference's values of the same stages; so region by region the kernel's arrays are the reference's, up to the
  graph's result.
-/
import proofs.«180140_j70136815943749_1_alg».proof.Proof.Stretches1
import proofs.«180140_j70136815943749_1_alg».proof.Proof.LinearBlocks
import proofs.«180140_j70136815943749_1_alg».proof.Proof.CombineBlocks
import proofs.«180140_j70136815943749_1_alg».proof.Proof.RefDot
import proofs.«180140_j70136815943749_1_alg».proof.Proof.RefCombine

set_option maxRecDepth 16384

noncomputable section

namespace Cert.KernelIdeal.Graph1

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- Layer one's transformed features: the input times the first weight matrix, the reference's host product. -/
theorem features1 : W2 m ρ c (Proc.devRef .tc main_v4) = Cert.ReferenceIdeal.Read.val_main_v4 (F := Ideal) (m ((c : Thread nD τ).loc main_arg0)) (m ((c : Thread nD τ).loc main_arg4)) := by
  have h : W2 m ρ c (Proc.devRef .tc main_v4) = Idealize.ShloMosaic.MatrixProduct.prod (M := 100000) (K := 128) (N := 128) (φ₁ := .f32) (φ₂ := .f32) (W1 m ρ c (Proc.devRef .tc main_arg0)) (W1 m ρ c (Proc.devRef .tc main_arg4)) :=
    (W2_arr m ρ c 2).trans (Cert.KernelIdeal.LinearBlocks.region0 (V1 m ρ) c)
  rw [entry1_arg0 m ρ c, entry1_arg4 m ρ c] at h
  exact h.trans (Cert.ReferenceIdeal.RefDot.dot_eq _ _).symm

/-- Layer one's output: the rectified combination, the reference's. -/
theorem hidden : W4 m ρ c (Proc.devRef .tc main_v43) = Cert.ReferenceIdeal.Read.val_main_v48 (F := Ideal) (m ((c : Thread nD τ).loc main_arg0)) (m ((c : Thread nD τ).loc main_arg1)) (m ((c : Thread nD τ).loc main_arg4)) (m ((c : Thread nD τ).loc main_arg5)) := by
  have h : W4 m ρ c (Proc.devRef .tc main_v43) = Cert.GcnSpec.combineRelu (F := Ideal) (W3 m ρ c (Proc.devRef .tc main_v39)) (W3 m ρ c (Proc.devRef .tc main_v4)) (W3 m ρ c (Proc.devRef .tc main_v41)) (W3 m ρ c (Proc.devRef .tc main_v42)) :=
    (W4_arr m ρ c 4).trans (Cert.KernelIdeal.CombineBlocks.region1 (V3 m ρ) c)
  rw [layer1_agg m ρ c (features1 m ρ c), layer1_feat m ρ c (features1 m ρ c), layer1_weight m ρ c, layer1_bias m ρ c] at h
  exact h.trans (Cert.ReferenceIdeal.RefCombine.layer_v48 _ _ _ _).symm

/-- Layer two's transformed features: layer one's output times the second weight matrix, the reference's host product. -/
theorem features2 : W6 m ρ c (Proc.devRef .tc main_v48) = Cert.ReferenceIdeal.Read.val_main_v53 (F := Ideal) (m ((c : Thread nD τ).loc main_arg0)) (m ((c : Thread nD τ).loc main_arg1)) (m ((c : Thread nD τ).loc main_arg4)) (m ((c : Thread nD τ).loc main_arg5)) (m ((c : Thread nD τ).loc main_arg6)) := by
  have h : W6 m ρ c (Proc.devRef .tc main_v48) = Idealize.ShloMosaic.MatrixProduct.prod (M := 100000) (K := 128) (N := 128) (φ₁ := .f32) (φ₂ := .f32) (W5 m ρ c (Proc.devRef .tc main_v43)) (W5 m ρ c (Proc.devRef .tc main_arg6)) :=
    (W6_arr m ρ c 2).trans (Cert.KernelIdeal.LinearBlocks.region2 (V5 m ρ) c)
  rw [entry2_hidden m ρ c, hidden m ρ c, entry2_arg6 m ρ c] at h
  exact h.trans (Cert.ReferenceIdeal.RefDot.dot_eq _ _).symm

/-- Layer two's output, the graph's result as region 3 leaves it: the combination without rectifier, the reference's. -/
theorem output : W8 m ρ c (Proc.devRef .tc main_v87) = Cert.ReferenceIdeal.Read.val_main_v96 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) := by
  have h : W8 m ρ c (Proc.devRef .tc main_v87) = Cert.GcnSpec.combine (F := Ideal) (W7 m ρ c (Proc.devRef .tc main_v83)) (W7 m ρ c (Proc.devRef .tc main_v48)) (W7 m ρ c (Proc.devRef .tc main_v85)) (W7 m ρ c (Proc.devRef .tc main_v86)) :=
    (W8_arr m ρ c 4).trans (Cert.KernelIdeal.CombineBlocks.region3 (V7 m ρ) c)
  rw [layer2_agg m ρ c (features2 m ρ c), layer2_feat m ρ c (features2 m ρ c), layer2_weight m ρ c, layer2_bias m ρ c] at h
  exact h.trans (Cert.ReferenceIdeal.RefCombine.layer_v96 _ _ _ _ _ _).symm

/-- The graph's result at the last boundary is the reference's result. -/
theorem result : W16 m ρ c (Proc.devRef .tc main_v87) = Cert.ReferenceIdeal.Read.val_main_v96 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) :=
  (result_kept m ρ c).trans (output m ρ c)

end Cert.KernelIdeal.Graph1

end
-- ==== Proof.Stretches2.lean ====
/-
  The host stretches of one graph's two layers, read at the buffers the kernel regions take.

  Between its kernel regions the program runs the same host operations as the reference: it slices the edge list into its
  two index rows, counts degrees by a scatter-add of ones, takes inverse square roots, gathers them and the transformed
  features along the edges, scatters the weighted messages back to the nodes, and squares the inverse roots into a one-column
  array. Given that the transformed features entering a stretch are the reference's, every array the next region takes is
  the reference's value of the same stage: the operations are the same, applied to equal operands. The bias enters the
  kernel as a one-row reshape of the bias vector and the reference as a broadcast of it onto a new leading axis: one array.
-/
import proofs.«180140_j70136815943749_1_alg».proof.Proof.Boundaries
import proofs.«180140_j70136815943749_1_alg».proof.Proof.Gen.ReferenceIdeal.Read
import proofs.«180140_j70136815943749_1_alg».proof.Proof.LibOneRowMatrix

set_option maxRecDepth 16384

noncomputable section

namespace Cert.KernelIdeal.Graph2

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- A bias vector reshaped to one row is the vector broadcast onto a new leading axis: entry `(0, q)` of either is the
    vector's entry `q`. -/
theorem bias_row (v : FVec Ideal S128 .f32) :
    shapeCast S1x128 v shapeCasts_S128_S1x128 = Cert.ReferenceIdeal.Read.val_main_v142 (F := Ideal) v := by
  funext i
  obtain ⟨p, q, rfl⟩ : ∃ (p : Fin 1) (q : Fin 128), i = ix2 p q := ⟨i 0, i 1, eq_ix2 i⟩
  obtain rfl : p = 0 := Subsingleton.elim _ _
  rw [Cert.ReferenceIdeal.Read.val_main_v142_apply]
  refine (OneRowMatrix.row_of_vector (n := 128) v shapeCasts_S128_S1x128 q).trans ?_
  exact congrArg v (funext fun a => Fin.ext (by match a with | ⟨0, _⟩ => rfl))

/-- Layer one's source index row: the reference's slice of the same argument. -/
theorem first_src :
    W9 m ρ c (Proc.devRef .tc main_v89) = Cert.ReferenceIdeal.Read.val_main_v98 (F := Ideal) (m ((c : Thread nD τ).loc main_arg3)) := by
  show StableHlo.after hostOps4 (W8 m ρ c) (Proc.devRef .tc main_v89) = _
  after_results
  rw [Boundaries.W8_arg3 m ρ c]
  rfl

/-- Layer one's target index row: the reference's slice of the same argument. -/
theorem first_dst :
    W9 m ρ c (Proc.devRef .tc main_v91) = Cert.ReferenceIdeal.Read.val_main_v100 (F := Ideal) (m ((c : Thread nD τ).loc main_arg3)) := by
  show StableHlo.after hostOps4 (W8 m ρ c) (Proc.devRef .tc main_v91) = _
  after_results
  rw [Boundaries.W8_arg3 m ρ c]
  rfl

/-- Argument 2 when the first linear region is entered: as launched. -/
theorem entry1_arg2 :
    W9 m ρ c (Proc.devRef .tc main_arg2) = (m ((c : Thread nD τ).loc main_arg2)) := by
  show StableHlo.after hostOps4 (W8 m ρ c) (Proc.devRef .tc main_arg2) = _
  after_results
  exact Boundaries.W8_arg2 m ρ c

/-- Argument 4 when the first linear region is entered: as launched. -/
theorem entry1_arg4 :
    W9 m ρ c (Proc.devRef .tc main_arg4) = (m ((c : Thread nD τ).loc main_arg4)) := by
  show StableHlo.after hostOps4 (W8 m ρ c) (Proc.devRef .tc main_arg4) = _
  after_results
  exact Boundaries.W8_arg4 m ρ c

/-- Layer one's aggregated messages: the reference's, the transformed features being the reference's. -/
theorem layer1_agg (h : W10 m ρ c (Proc.devRef .tc main_v92) = Cert.ReferenceIdeal.Read.val_main_v101 (F := Ideal) (m ((c : Thread nD τ).loc main_arg2)) (m ((c : Thread nD τ).loc main_arg4))) :
    W11 m ρ c (Proc.devRef .tc main_v127) = Cert.ReferenceIdeal.Read.val_main_v136 (F := Ideal) (m ((c : Thread nD τ).loc main_arg2)) (m ((c : Thread nD τ).loc main_arg3)) (m ((c : Thread nD τ).loc main_arg4)) := by
  show StableHlo.after hostOps5 (W10 m ρ c) (Proc.devRef .tc main_v127) = _
  after_results_simp
  rw [h, (W10_of_ne m ρ c main_v89 (by decide)).trans (first_src m ρ c), (W10_of_ne m ρ c main_v91 (by decide)).trans (first_dst m ρ c)]
  rfl

/-- Layer one's node weights (squared inverse root degrees, one column): the reference's. -/
theorem layer1_weight :
    W11 m ρ c (Proc.devRef .tc main_v129) = Cert.ReferenceIdeal.Read.val_main_v138 (F := Ideal) (m ((c : Thread nD τ).loc main_arg3)) := by
  show StableHlo.after hostOps5 (W10 m ρ c) (Proc.devRef .tc main_v129) = _
  after_results_simp
  rw [(W10_of_ne m ρ c main_v91 (by decide)).trans (first_dst m ρ c)]
  rfl

/-- Layer one's bias as a one-row array: the reference's. -/
theorem layer1_bias :
    W11 m ρ c (Proc.devRef .tc main_v130) = Cert.ReferenceIdeal.Read.val_main_v142 (F := Ideal) (m ((c : Thread nD τ).loc main_arg5)) := by
  show StableHlo.after hostOps5 (W10 m ρ c) (Proc.devRef .tc main_v130) = _
  after_results
  rw [Boundaries.W10_arg5 m ρ c]
  exact bias_row (m ((c : Thread nD τ).loc main_arg5))

/-- The transformed features pass the stretch unchanged. -/
theorem layer1_feat (h : W10 m ρ c (Proc.devRef .tc main_v92) = Cert.ReferenceIdeal.Read.val_main_v101 (F := Ideal) (m ((c : Thread nD τ).loc main_arg2)) (m ((c : Thread nD τ).loc main_arg4))) :
    W11 m ρ c (Proc.devRef .tc main_v92) = Cert.ReferenceIdeal.Read.val_main_v101 (F := Ideal) (m ((c : Thread nD τ).loc main_arg2)) (m ((c : Thread nD τ).loc main_arg4)) := by
  show StableHlo.after hostOps5 (W10 m ρ c) (Proc.devRef .tc main_v92) = _
  after_results
  exact h

/-- Layer two's source index row: the reference's slice of the same argument. -/
theorem second_src :
    W13 m ρ c (Proc.devRef .tc main_v133) = Cert.ReferenceIdeal.Read.val_main_v147 (F := Ideal) (m ((c : Thread nD τ).loc main_arg3)) := by
  show StableHlo.after hostOps6 (W12 m ρ c) (Proc.devRef .tc main_v133) = _
  after_results
  rw [Boundaries.W12_arg3 m ρ c]
  rfl

/-- Layer two's target index row: the reference's slice of the same argument. -/
theorem second_dst :
    W13 m ρ c (Proc.devRef .tc main_v135) = Cert.ReferenceIdeal.Read.val_main_v149 (F := Ideal) (m ((c : Thread nD τ).loc main_arg3)) := by
  show StableHlo.after hostOps6 (W12 m ρ c) (Proc.devRef .tc main_v135) = _
  after_results
  rw [Boundaries.W12_arg3 m ρ c]
  rfl

/-- Layer one's output passes the stretch unchanged. -/
theorem entry2_hidden :
    W13 m ρ c (Proc.devRef .tc main_v131) = W12 m ρ c (Proc.devRef .tc main_v131) := by
  show StableHlo.after hostOps6 (W12 m ρ c) (Proc.devRef .tc main_v131) = _
  after_results

/-- The second weight matrix when the second linear region is entered: as launched. -/
theorem entry2_arg6 :
    W13 m ρ c (Proc.devRef .tc main_arg6) = (m ((c : Thread nD τ).loc main_arg6)) := by
  show StableHlo.after hostOps6 (W12 m ρ c) (Proc.devRef .tc main_arg6) = _
  after_results
  exact Boundaries.W12_arg6 m ρ c

/-- Layer two's aggregated messages: the reference's, the transformed features being the reference's. -/
theorem layer2_agg (h : W14 m ρ c (Proc.devRef .tc main_v136) = Cert.ReferenceIdeal.Read.val_main_v150 (F := Ideal) (m ((c : Thread nD τ).loc main_arg2)) (m ((c : Thread nD τ).loc main_arg3)) (m ((c : Thread nD τ).loc main_arg4)) (m ((c : Thread nD τ).loc main_arg5)) (m ((c : Thread nD τ).loc main_arg6))) :
    W15 m ρ c (Proc.devRef .tc main_v171) = Cert.ReferenceIdeal.Read.val_main_v185 (F := Ideal) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps7 (W14 m ρ c) (Proc.devRef .tc main_v171) = _
  after_results_simp
  rw [h, (W14_of_ne m ρ c main_v133 (by decide)).trans (second_src m ρ c), (W14_of_ne m ρ c main_v135 (by decide)).trans (second_dst m ρ c)]
  rfl

/-- Layer two's node weights: the reference's. -/
theorem layer2_weight :
    W15 m ρ c (Proc.devRef .tc main_v173) = Cert.ReferenceIdeal.Read.val_main_v187 (F := Ideal) (m ((c : Thread nD τ).loc main_arg3)) := by
  show StableHlo.after hostOps7 (W14 m ρ c) (Proc.devRef .tc main_v173) = _
  after_results_simp
  rw [(W14_of_ne m ρ c main_v135 (by decide)).trans (second_dst m ρ c)]
  rfl

/-- Layer two's bias as a one-row array: the reference's. -/
theorem layer2_bias :
    W15 m ρ c (Proc.devRef .tc main_v174) = Cert.ReferenceIdeal.Read.val_main_v191 (F := Ideal) (m ((c : Thread nD τ).loc main_arg7)) := by
  show StableHlo.after hostOps7 (W14 m ρ c) (Proc.devRef .tc main_v174) = _
  after_results
  rw [Boundaries.W14_arg7 m ρ c]
  exact bias_row (m ((c : Thread nD τ).loc main_arg7))

/-- The transformed features pass the stretch unchanged. -/
theorem layer2_feat (h : W14 m ρ c (Proc.devRef .tc main_v136) = Cert.ReferenceIdeal.Read.val_main_v150 (F := Ideal) (m ((c : Thread nD τ).loc main_arg2)) (m ((c : Thread nD τ).loc main_arg3)) (m ((c : Thread nD τ).loc main_arg4)) (m ((c : Thread nD τ).loc main_arg5)) (m ((c : Thread nD τ).loc main_arg6))) :
    W15 m ρ c (Proc.devRef .tc main_v136) = Cert.ReferenceIdeal.Read.val_main_v150 (F := Ideal) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps7 (W14 m ρ c) (Proc.devRef .tc main_v136) = _
  after_results
  exact h

end Cert.KernelIdeal.Graph2

end
-- ==== Proof.Layers2.lean ====
/-
  One graph's two layers: the kernel regions joined to the host stretches between them.

  A linear region leaves the product of its input array and its weight matrix, which is the reference's host product of
  the same operands. A combine region leaves, entry by entry, the aggregated messages plus the node's own transformed
  feature times its weight plus the bias (the first layer then the maximum with zero), which is the reference's chain of
  whole-array additions, products and broadcasts read at that entry. Each region's operands are, by the stretch before it,
  the reference's values of the same stages; so region by region the kernel's arrays are the reference's, up to the
  graph's result.
-/
import proofs.«180140_j70136815943749_1_alg».proof.Proof.Stretches2
import proofs.«180140_j70136815943749_1_alg».proof.Proof.LinearBlocks
import proofs.«180140_j70136815943749_1_alg».proof.Proof.CombineBlocks
import proofs.«180140_j70136815943749_1_alg».proof.Proof.RefDot
import proofs.«180140_j70136815943749_1_alg».proof.Proof.RefCombine

set_option maxRecDepth 16384

noncomputable section

namespace Cert.KernelIdeal.Graph2

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- Layer one's transformed features: the input times the first weight matrix, the reference's host product. -/
theorem features1 : W10 m ρ c (Proc.devRef .tc main_v92) = Cert.ReferenceIdeal.Read.val_main_v101 (F := Ideal) (m ((c : Thread nD τ).loc main_arg2)) (m ((c : Thread nD τ).loc main_arg4)) := by
  have h : W10 m ρ c (Proc.devRef .tc main_v92) = Idealize.ShloMosaic.MatrixProduct.prod (M := 100000) (K := 128) (N := 128) (φ₁ := .f32) (φ₂ := .f32) (W9 m ρ c (Proc.devRef .tc main_arg2)) (W9 m ρ c (Proc.devRef .tc main_arg4)) :=
    (W10_arr m ρ c 2).trans (Cert.KernelIdeal.LinearBlocks.region4 (V9 m ρ) c)
  rw [entry1_arg2 m ρ c, entry1_arg4 m ρ c] at h
  exact h.trans (Cert.ReferenceIdeal.RefDot.dot_eq _ _).symm

/-- Layer one's output: the rectified combination, the reference's. -/
theorem hidden : W12 m ρ c (Proc.devRef .tc main_v131) = Cert.ReferenceIdeal.Read.val_main_v145 (F := Ideal) (m ((c : Thread nD τ).loc main_arg2)) (m ((c : Thread nD τ).loc main_arg3)) (m ((c : Thread nD τ).loc main_arg4)) (m ((c : Thread nD τ).loc main_arg5)) := by
  have h : W12 m ρ c (Proc.devRef .tc main_v131) = Cert.GcnSpec.combineRelu (F := Ideal) (W11 m ρ c (Proc.devRef .tc main_v127)) (W11 m ρ c (Proc.devRef .tc main_v92)) (W11 m ρ c (Proc.devRef .tc main_v129)) (W11 m ρ c (Proc.devRef .tc main_v130)) :=
    (W12_arr m ρ c 4).trans (Cert.KernelIdeal.CombineBlocks.region5 (V11 m ρ) c)
  rw [layer1_agg m ρ c (features1 m ρ c), layer1_feat m ρ c (features1 m ρ c), layer1_weight m ρ c, layer1_bias m ρ c] at h
  exact h.trans (Cert.ReferenceIdeal.RefCombine.layer_v145 _ _ _ _).symm

/-- Layer two's transformed features: layer one's output times the second weight matrix, the reference's host product. -/
theorem features2 : W14 m ρ c (Proc.devRef .tc main_v136) = Cert.ReferenceIdeal.Read.val_main_v150 (F := Ideal) (m ((c : Thread nD τ).loc main_arg2)) (m ((c : Thread nD τ).loc main_arg3)) (m ((c : Thread nD τ).loc main_arg4)) (m ((c : Thread nD τ).loc main_arg5)) (m ((c : Thread nD τ).loc main_arg6)) := by
  have h : W14 m ρ c (Proc.devRef .tc main_v136) = Idealize.ShloMosaic.MatrixProduct.prod (M := 100000) (K := 128) (N := 128) (φ₁ := .f32) (φ₂ := .f32) (W13 m ρ c (Proc.devRef .tc main_v131)) (W13 m ρ c (Proc.devRef .tc main_arg6)) :=
    (W14_arr m ρ c 2).trans (Cert.KernelIdeal.LinearBlocks.region6 (V13 m ρ) c)
  rw [entry2_hidden m ρ c, hidden m ρ c, entry2_arg6 m ρ c] at h
  exact h.trans (Cert.ReferenceIdeal.RefDot.dot_eq _ _).symm

/-- Layer two's output, the graph's result as region 7 leaves it: the combination without rectifier, the reference's. -/
theorem output : W16 m ρ c (Proc.devRef .tc main_v175) = Cert.ReferenceIdeal.Read.val_main_v193 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have h : W16 m ρ c (Proc.devRef .tc main_v175) = Cert.GcnSpec.combine (F := Ideal) (W15 m ρ c (Proc.devRef .tc main_v171)) (W15 m ρ c (Proc.devRef .tc main_v136)) (W15 m ρ c (Proc.devRef .tc main_v173)) (W15 m ρ c (Proc.devRef .tc main_v174)) :=
    (W16_arr m ρ c 4).trans (Cert.KernelIdeal.CombineBlocks.region7 (V15 m ρ) c)
  rw [layer2_agg m ρ c (features2 m ρ c), layer2_feat m ρ c (features2 m ρ c), layer2_weight m ρ c, layer2_bias m ρ c] at h
  exact h.trans (Cert.ReferenceIdeal.RefCombine.layer_v193 _ _ _ _ _ _).symm

/-- The graph's result at the last boundary is the reference's result. -/
theorem result : W16 m ρ c (Proc.devRef .tc main_v175) = Cert.ReferenceIdeal.Read.val_main_v193 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  output m ρ c

end Cert.KernelIdeal.Graph2

end
-- ==== Proof.lean ====
/-
  Two graphs, each through two graph-convolution layers with shared weights: the kernel against its reference.

  The kernel computes each layer's dense transform and its final combination in kernel regions (a matrix product of a
  block of 5000 rows; `(agg + h · d) + b`, then the maximum with zero in the first layer) and everything between them —
  degrees, inverse roots, gathers along the edges, the scatter-add of the messages — by the same host operations as the
  reference. On the extended reals a block's product is the whole product's rows, a sum has no order and a change of float
  format is the identity, so region by region the kernel's arrays are the reference's values of the same stages, and the two
  results agree entry by entry. No law used needs the inputs to be finite. The frames of both kernel programs are the
  generated ones; the reference's frame is its generated run with the results dropped; the idealization rewrote nothing.
-/
import proofs.«180140_j70136815943749_1_alg».proof.Defs
import proofs.«180140_j70136815943749_1_alg».proof.Proof.Gen.Kernel
import proofs.«180140_j70136815943749_1_alg».proof.Proof.Gen.Kernel.Frame
import proofs.«180140_j70136815943749_1_alg».proof.Proof.Gen.KernelIdeal
import proofs.«180140_j70136815943749_1_alg».proof.Proof.Gen.KernelIdeal.Frame
import proofs.«180140_j70136815943749_1_alg».proof.Proof.Gen.ReferenceIdeal
import proofs.«180140_j70136815943749_1_alg».proof.Proof.Gen.Pre_finite_inputs
import proofs.«180140_j70136815943749_1_alg».proof.Proof.Gen.ReferenceIdeal.Run
import proofs.«180140_j70136815943749_1_alg».proof.Proof.Gen.ReferenceIdeal.Read
import proofs.«180140_j70136815943749_1_alg».proof.Proof.KernelRun
import proofs.«180140_j70136815943749_1_alg».proof.Proof.Layers1
import proofs.«180140_j70136815943749_1_alg».proof.Proof.Layers2
import Idealize.ShloMosaic.Adequacy
import Idealize.ShloMosaic.Init

noncomputable section

namespace Cert.Proof

open Idealize.ShloMosaic Idealize.ShloMosaic.TcCoe Idealize.SL.Sem

section Claims

variable [hK : Cert.Kernel.Facts] [hKI : Cert.KernelIdeal.Facts] [hRI : Cert.ReferenceIdeal.Facts] [hPre : Cert.Pre_finite_inputs.Facts]

theorem frame_kernel : Cert.frame_Kernel := fun m ρ _ => Cert.Kernel.Gen.frame m ρ

theorem frame_kernelIdeal : Cert.frame_KernelIdeal := fun m ρ _ => Cert.KernelIdeal.Gen.frame m ρ

/-- The reference's run with its results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with each graph's result at the reference's value of its last stage, read off the arguments. -/
theorem algebraic : Cert.algebraic_KernelIdeal_ReferenceIdeal := by
  intro m ρ m' ρ' _ hagree
  refine ⟨fun c => Cert.ReferenceIdeal.Read.val_main_v96 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.ReferenceIdeal.Read.val_main_v193 (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun r h c => ?_) (Cert.KernelIdeal.Named.run_named (F := Ideal) m ρ)
    obtain ⟨h0, h1, hargs⟩ := h c
    exact ⟨h0.trans (Cert.KernelIdeal.Graph1.result m ρ c), h1.trans (Cert.KernelIdeal.Graph2.result m ρ c), hargs⟩
  · refine (θ_run Cert.ReferenceIdeal.defs _ _).mono (fun r h c => ?_) (Cert.ReferenceIdeal.Value.run (F := Ideal) m' ρ')
    obtain ⟨h0, h1, hargs⟩ := h c
    obtain ⟨e0, e1, e2, e3, e4, e5, e6, e7⟩ := hagree c
    refine ⟨?_, ?_, hargs⟩
    · rw [h0, Cert.ReferenceIdeal.Read.val_main_v96_eq, e0, e1, e4, e5, e6, e7]
    · rw [h1, Cert.ReferenceIdeal.Read.val_main_v193_eq, e2, e3, e4, e5, e6, e7]

end Claims

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
